-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S1x8192 : Shape := ⟨2, ![1, 8192]⟩
abbrev S1024x128 : Shape := ⟨2, ![1024, 128]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩
abbrev S8192 : Shape := ⟨1, ![8192]⟩

abbrev nBuf : Space → Nat
  | .hbm => 39
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S8192x128, .bf16⟩
  | .hbm, ⟨24, _⟩ => ⟨S1x8192, .f32⟩
  | .hbm, ⟨25, _⟩ => ⟨S8192, .f32⟩
  | .hbm, ⟨26, _⟩ => ⟨S4096x128, .f32⟩
  | .hbm, ⟨27, _⟩ => ⟨S_, .f32⟩
  | .hbm, ⟨28, _⟩ => ⟨S4096, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  iota_S1024x1024_d1_w32 : S1024x1024.Iotas .tc 32 [1]
  iota_S1024x1024_d0_w32 : S1024x1024.Iotas .tc 32 [0]
  reduces_S1024x1024_S1024 : S1024x1024.Reduces [0] S1024
  shapeCasts_S1024_S1x1024 : S1024.ShapeCasts S1x1024
  shapeCasts_S1x8192_S8192 : S1x8192.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v11) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 100
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S4096, .f32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S_, .i32⟩
  | .hbm, ⟨61, _⟩ => ⟨S4096, .i32⟩
  | .hbm, ⟨62, _⟩ => ⟨S4096, .i1⟩
  | .hbm, ⟨63, _⟩ => ⟨S_, .i32⟩
  | .hbm, ⟨64, _⟩ => ⟨S4096, .i32⟩
  | .hbm, ⟨65, _⟩ => ⟨S4096, .i32⟩
  | .hbm, ⟨66, _⟩ => ⟨S4096, .i32⟩
  | .hbm, ⟨67, _⟩ => ⟨S4096x1, .i32⟩
  | .hbm, ⟨68, _⟩ => ⟨S4096x1, .i32⟩
  | .hbm, ⟨69, _⟩ => ⟨S4096x2, .i32⟩
  | .hbm, ⟨70, _⟩ => ⟨S4096, .f32⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S8192, .f32⟩
  | .hbm, ⟨76, _⟩ => ⟨S8192x8192, .i32⟩
  | .hbm, ⟨77, _⟩ => ⟨S8192x8192, .i32⟩
  | .hbm, ⟨78, _⟩ => ⟨S_, .i32⟩
  | .hbm, ⟨79, _⟩ => ⟨S8192x8192, .i32⟩
  | .hbm, ⟨80, _⟩ => ⟨S8192x8192, .i32⟩
  | .hbm, ⟨81, _⟩ => ⟨S8192x8192, .i1⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S_, .f32⟩
  | .hbm, ⟨87, _⟩ => ⟨S8192x8192, .f32⟩
  | .hbm, ⟨88, _⟩ => ⟨S8192x8192, .f32⟩
  | .hbm, ⟨89, _⟩ => ⟨S8192x8192, .f32⟩
  | .hbm, ⟨90, _⟩ => ⟨S8192x8192, .f32⟩
  | .hbm, ⟨91, _⟩ => ⟨S_, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call2_v0 : Ref sig .tc := ⟨.hbm, 25, rfl⟩
abbrev main_call2_v1 : Ref sig .tc := ⟨.hbm, 26, rfl⟩
abbrev main_call2_c : Ref sig .tc := ⟨.hbm, 27, rfl⟩
abbrev main_call2_v2 : Ref sig .tc := ⟨.hbm, 28, rfl⟩
abbrev main_call2_v3 : Ref sig .tc := ⟨.hbm, 29, rfl⟩
abbrev main_call2_c_0 : Ref sig .tc := ⟨.hbm, 30, rfl⟩
abbrev main_call2_v4 : Ref sig .tc := ⟨.hbm, 31, rfl⟩
abbrev main_call2_v5 : Ref sig .tc := ⟨.hbm, 32, rfl⟩
abbrev main_call2_c_1 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c_2 : Ref sig .tc := ⟨.hbm, 37, rfl⟩
abbrev main_call2_v9 : Ref sig .tc := ⟨.hbm, 38, rfl⟩
abbrev main_call2_v10 : Ref sig .tc := ⟨.hbm, 39, rfl⟩
abbrev main_call2_c_3 : Ref sig .tc := ⟨.hbm, 40, rfl⟩
abbrev main_call2_v11 : Ref sig .tc := ⟨.hbm, 41, rfl⟩
abbrev main_call2_v12 : Ref sig .tc := ⟨.hbm, 42, rfl⟩
abbrev main_call2_v13 : Ref sig .tc := ⟨.hbm, 43, rfl⟩
abbrev main_call2_v14 : Ref sig .tc := ⟨.hbm, 44, rfl⟩
abbrev main_call2_v15 : Ref sig .tc := ⟨.hbm, 45, rfl⟩
abbrev main_call2_v16 : Ref sig .tc := ⟨.hbm, 46, rfl⟩
abbrev main_v13 : Ref sig .tc := ⟨.hbm, 47, rfl⟩
abbrev main_call3_v0 : Ref sig .tc := ⟨.hbm, 48, rfl⟩
abbrev main_call3_v1 : Ref sig .tc := ⟨.hbm, 49, rfl⟩
abbrev main_call3_c : Ref sig .tc := ⟨.hbm, 50, rfl⟩
abbrev main_call3_v2 : Ref sig .tc := ⟨.hbm, 51, rfl⟩
abbrev main_call3_v3 : Ref sig .tc := ⟨.hbm, 52, rfl⟩
abbrev main_call3_c_0 : Ref sig .tc := ⟨.hbm, 53, rfl⟩
abbrev main_call3_v4 : Ref sig .tc := ⟨.hbm, 54, rfl⟩
abbrev main_call3_v5 : Ref sig .tc := ⟨.hbm, 55, rfl⟩
abbrev main_call3_c_1 : Ref sig .tc := ⟨.hbm, 56, rfl⟩
abbrev main_call3_v6 : Ref sig .tc := ⟨.hbm, 57, rfl⟩
abbrev main_call3_v7 : Ref sig .tc := ⟨.hbm, 58, rfl⟩
abbrev main_call3_v8 : Ref sig .tc := ⟨.hbm, 59, rfl⟩
abbrev main_call3_c_2 : Ref sig .tc := ⟨.hbm, 60, rfl⟩
abbrev main_call3_v9 : Ref sig .tc := ⟨.hbm, 61, rfl⟩
abbrev main_call3_v10 : Ref sig .tc := ⟨.hbm, 62, rfl⟩
abbrev main_call3_c_3 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_call3_v15 : Ref sig .tc := ⟨.hbm, 68, rfl⟩
abbrev main_call3_v16 : Ref sig .tc := ⟨.hbm, 69, rfl⟩
abbrev main_v14 : Ref sig .tc := ⟨.hbm, 70, rfl⟩
abbrev main_v15 : Ref sig .tc := ⟨.hbm, 71, rfl⟩
abbrev main_cst_1 : Ref sig .tc := ⟨.hbm, 72, rfl⟩
abbrev main_v16 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_c : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst_2 : Ref sig .tc := ⟨.hbm, 83, rfl⟩
abbrev main_v25 : Ref sig .tc := ⟨.hbm, 84, rfl⟩
abbrev main_v26 : Ref sig .tc := ⟨.hbm, 85, rfl⟩
abbrev main_cst_3 : Ref sig .tc := ⟨.hbm, 86, rfl⟩
abbrev main_v27 : Ref sig .tc := ⟨.hbm, 87, rfl⟩
abbrev main_v28 : Ref sig .tc := ⟨.hbm, 88, rfl⟩
abbrev main_v29 : Ref sig .tc := ⟨.hbm, 89, rfl⟩
abbrev main_v30 : Ref sig .tc := ⟨.hbm, 90, rfl⟩
abbrev main_cst_4 : Ref sig .tc := ⟨.hbm, 91, rfl⟩
abbrev main_v31 : Ref sig .tc := ⟨.hbm, 92, rfl⟩
abbrev main_v32 : Ref sig .tc := ⟨.hbm, 93, rfl⟩
abbrev main_v33 : Ref sig .tc := ⟨.hbm, 94, rfl⟩
abbrev main_v34 : Ref sig .tc := ⟨.hbm, 95, rfl⟩
abbrev main_cst_5 : Ref sig .tc := ⟨.hbm, 96, rfl⟩
abbrev main_v35 : Ref sig .tc := ⟨.hbm, 97, rfl⟩
abbrev main_cst_6 : Ref sig .tc := ⟨.hbm, 98, rfl⟩
abbrev main_v36 : Ref sig .tc := ⟨.hbm, 99, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.BitsShared.lean ====
/-
  The tiled exponential-sum kernel's run, part one: what every later step is stated over.

  The program computes the scaled rows on the host (four stretches of host operations), hands the one array of
  8192 scaled rows to the kernel TWICE — once as the block of 1024 "row" vectors chosen by the first grid
  coordinate, once as the block of 1024 "column" vectors chosen by the second —, and after the kernel finishes
  the loss on the host.  The kernel keeps a 1 x 1024 accumulator between grid points: cleared when the second
  coordinate is 0, added to at every point, copied to the output block when the second coordinate is 7.

  Here: the buffers' contents when the kernel is entered; each window's block at a grid point; the two
  conditions in closed form over the 64 points; where the output window is idle.
-/
import proofs.«159862_j2027224563777_1_alg».proof.Proof.Gen.Kernel.Launch
import proofs.«159862_j2027224563777_1_alg».proof.Proof.Gen.Kernel.Skeleton
import proofs.«159862_j2027224563777_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the kernel -/

/-- The buffers' contents when the kernel is entered: the launch contents after the four stretches of host operations. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the kernel, the kernel, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The host operations before the kernel do not write the first argument array. -/
theorem V_main_arg0 (c : Dev nD) : V m c main_arg0 = m ((c : Thread nD τ).loc main_arg0) := by
  dsimp only [V, V0]
  simp only [hostOps0, hostOps0_1, hostOps0_2, hostOps0_3, List.flatten_cons, List.flatten_nil, List.append_nil, List.cons_append, List.nil_append]
  after_results
/-- Nor the second. -/
theorem V_main_arg1 (c : Dev nD) : V m c main_arg1 = m ((c : Thread nD τ).loc main_arg1) := by
  dsimp only [V, V0]
  simp only [hostOps0, hostOps0_1, hostOps0_2, hostOps0_3, List.flatten_cons, List.flatten_nil, List.append_nil, List.cons_append, List.nil_append]
  after_results

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The "row" window's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the "column" window's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions, over the 64 points -/

/-- "The second grid coordinate is 0": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "The second grid coordinate is 7": the accumulator is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column step the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column step it is live. -/
theorem liveAt0_2 : ∀ t : Fin cfg0.N, cond0_1 (grid0.coords t) → cfg0.idle 2 (grid0.coords t) = false := by decide +kernel

/-! ## The staging and scratch buffers at a point -/

abbrev VO0_2 : View sig .tc .vmem S1x1024 .f32 := (Memref.whole cc0_stg2_0 : Memref sig .tc .vmem S1x1024 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
/-- The accumulator: a whole buffer of the kernel's own, passed beside the windows. -/
abbrev scM0_0 : Memref sig .tc .vmem S1x1024 .f32 := Memref.whole cc0_scratch0
abbrev VS0_0 : View sig .tc .vmem S1x1024 .f32 := scM0_0.view

/-- What the kernel's body may use besides its windows: the accumulator, whole, at some contents. -/
theorem PhiR0_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.Kernel.Fr

end
-- ==== Proof.BitsRunA.lean ====
/-
  The kernel's body run once, on any whole staging buffers, when the second grid coordinate is 0 (the accumulator is cleared, then added to; nothing is copied out):
  the stores it leaves in the accumulator (and, at the last column step, in the output block) are found by running it.
-/
import proofs.«159862_j2027224563777_1_alg».proof.Proof.BitsShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave, last first, with the proof that from whole buffers — the two input blocks at
    `x0`, `x1`, the accumulator at anything, the output block handed back untouched — the body runs to its end. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i)
    (x0 x1 : Vec F S1024x128 .bf16) :
    Σ' (L2 : List (View.Piece (Elt F) S1x1024 .f32)), { LS0 : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.BitsRunB.lean ====
/-
  The kernel's body run once, on any whole staging buffers, when the second grid coordinate is neither 0 nor 7 (the accumulator is added to; nothing is copied out):
  the stores it leaves in the accumulator (and, at the last column step, in the output block) are found by running it.
-/
import proofs.«159862_j2027224563777_1_alg».proof.Proof.BitsShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave, last first, with the proof that from whole buffers — the two input blocks at
    `x0`, `x1`, the accumulator at what the point before left, the output block handed back untouched — the body runs to its end. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i)
    (x0 x1 : Vec F S1024x128 .bf16) (xs0 : Vec F S1x1024 .f32) :
    Σ' (L2 : List (View.Piece (Elt F) S1x1024 .f32)), { LS0 : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.BitsRunC.lean ====
/-
  The kernel's body run once, on any whole staging buffers, when the second grid coordinate is 7 (the accumulator is added to, then copied into the output block):
  the stores it leaves in the accumulator (and, at the last column step, in the output block) are found by running it.
-/
import proofs.«159862_j2027224563777_1_alg».proof.Proof.BitsShared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave, last first, with the proof that from whole buffers — the two input blocks at
    `x0`, `x1`, the accumulator at what the point before left, the output block at anything — the body runs to its end. -/
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i)
    (x0 x1 : Vec F S1024x128 .bf16) (xs0 : Vec F S1x1024 .f32) :
    Σ' (L2 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.BitsFrame.lean ====
/-
  The tiled exponential-sum kernel's run, part two: what the accumulator and the output block hold after each
  of the 64 grid points (by recursion on the point), the proof data of the pipeline over them, and the body's
  obligation at every point — the three cases of the two conditions, each closed by that case's run.
-/
import proofs.«159862_j2027224563777_1_alg».proof.Proof.BitsRunA
import proofs.«159862_j2027224563777_1_alg».proof.Proof.BitsRunB
import proofs.«159862_j2027224563777_1_alg».proof.Proof.BitsRunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's stores into the accumulator cover it. -/
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 x1 : Vec F S1024x128 .bf16) (y : S1x1024.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x1024.size (by sl_kernel_rfl) y
/-- What case A leaves in the accumulator. -/
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 x1 : Vec F S1024x128 .bf16) : Vec F S1x1024 .f32 :=
  VS0_0.read (Elt F) (VS0_0.writes (Elt F) VS0_0.junk (kernelRun0_A c i arg2 harg2 arg3 harg3 arg4 harg4 arg5 harg5 hc0 hc1 x0 x1).2.1)

theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 x1 : Vec F S1024x128 .bf16) (xs0 : Vec F S1x1024 .f32) (y : S1x1024.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x1024.size (by sl_kernel_rfl) y
/-- What case B leaves in the accumulator. -/
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 x1 : Vec F S1024x128 .bf16) (xs0 : Vec F S1x1024 .f32) : Vec F S1x1024 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) (y : S1x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1024.size (by sl_kernel_rfl) y
/-- What case C leaves in the output block. -/
def out0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) : Vec F S1x1024 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) (y : S1x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x1024.size (by sl_kernel_rfl) y
/-- What case C leaves in the accumulator. -/
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) : Vec F S1x1024 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- A placeholder for the output block where the body stores nothing into it (never consulted there). -/
def idleOut : Vec F S1x1024 .f32 := VO0_2.read (Elt F) VO0_2.junk

/-- What the output block and the accumulator hold after the body at position `n`: the case the closed forms select,
    run on that point's input blocks, over the accumulator the point before left. -/
def outsAt0 (c : Dev nD) : (n : ℕ) → n < cfg0.N → Vec F S1x1024 .f32 × Vec F S1x1024 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (idleOut, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (idleOut, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The kernel's invariant before position `n`: before the first point the accumulator at anything; afterwards at
    what the point before left in it; nothing else. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare ((outsAt0 m c n hn).2) := rfl
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The arrays as the kernel finds them; after the body each input's buffer at its block, the output's at `outsAt0`;
    the two input windows read ONE array, each at half the share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the closed forms say which case the point is in, and that case's run applies; the
    invariant hands the body the accumulator at what the point before left and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    by_cases hz : t.val = 0
    · rw [PhiS_castSucc m c t, PhiS_zero m c _ _ hz, PhiR0_eq]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, PhiR0_eq]
  iintro HS0
  iexists _; iexact HS0

theorem hout (c : Dev nD) : (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 64 := N_0; omega)

end Cert.Kernel.Fr

end
-- ==== Proof.BitsLaunch.lean ====
/-
  The tiled exponential-sum kernel's run, part three: the launch.

  The kernel's two input windows read ONE array (the 8192 scaled rows), so at entry that array's ownership is split
  in two halves, one per window, and joined again at exit before the host operations after the kernel run.  The
  result: every weakly fair execution of the program terminates; each window's array ends at what the write-backs
  make of it, and every other buffer ends as the host operations after the kernel leave it.
-/
import proofs.«159862_j2027224563777_1_alg».proof.Proof.BitsFrame

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The two distinct arrays behind the three windows -/

/-- The array of scaled rows and the output array, once each. -/
abbrev spec2 : Fin 2 → Pipeline.WinSpec sig grid0.rank := fun | 0 => spec0 0 | 1 => spec0 2 | ⟨_ + 2, h⟩ => absurd h (Nat.not_lt.2 (Nat.le_add_left _ _))
theorem spec2_inj : Function.Injective (arrRef spec2) := by decide
theorem img_eq : Finset.univ.image (arrRef spec2) = Finset.univ.image (arrRef spec0) := by decide

theorem bigSep_F2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The two arrays' contents when the host operations after the kernel start. -/
def A2 (c : Dev nD) : (w : Fin 2) → Buf (Elt F) ((spec2 w).arr.view.loc (c.tc : Thread nD τ)) := fun w => match w with
  | ⟨0, _⟩ => (dats m 0 c).arrAt 0 cfg0.N
  | ⟨1, _⟩ => (dats m 0 c).arrAt 2 cfg0.N

/-- Every buffer's contents at the end: the host operations after the kernel, from the kernel's exit. -/
def VT (c : Dev nD) : Valuation τ sig (Elt F) :=
  StableHlo.after (List.flatten [hostOps1]) (withArrays spec2 c (V0 m c) (A2 m c))

/-! ## Splitting and joining the shared array -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The pipeline's three arrays at contents `G`, the two input windows' equal, are the two distinct arrays whole. -/
theorem arrays_iff (c : Dev nD) (G : (w : Fin cfg0.W) → Buf (Elt F) ((cfg0.win w).arr.view.loc (c.tc : Thread nD τ)))
    (h01 : G 1 = G 0) :
    (dats m 0 c).arrays G ⊣⊢ (arrPts spec2 c (fun w => match w with | ⟨0, _⟩ => G 0 | ⟨1, _⟩ => G 2) : sProp 𝕄) := by
  unfold Dat.arrays arrPts
  rw [bigSep_W0, bigSep_F2, (arr_whole0 0).set_eq_univ, (arr_whole0 2).set_eq_univ, share0, share1, share2, h01]
  constructor
  · iintro ⟨Hl, Hr, H2⟩
    isplitl [Hl Hr]
    · iapply (pointsTo_share (PosShare.mem_left_op_right fullShare)).2
      isplitl [Hl]; · iexact Hl
      iexact Hr
    iexact H2
  · iintro ⟨H, H2⟩
    ihave H' := (pointsTo_share (PosShare.mem_left_op_right fullShare)).1 $$ H
    icases H' with ⟨Hl, Hr⟩
    isplitl [Hl]; · iexact Hl
    isplitl [Hr]; · iexact Hr
    iexact H2

/-! ## The kernel's entry and exit -/

theorem rest_eq2 (c : Dev nD) (W : (b : Ref sig .tc) → Buf (Elt F) ((c.tc : Thread nD τ).loc b)) :
    (unscopedRestP Prefetch.none spec2 c W : sProp 𝕄) = unscopedRestP Prefetch.none spec0 c W := by
  unfold unscopedRestP; rw [img_eq]

/-- At entry the buffers behind the arrays, whole, make the pipeline's arrays: the shared one split in two halves. -/
theorem hsplit (c : Dev nD) : (arrBufs spec0 c (V m c) : sProp 𝕄) ⊢ (dats m 0 c).arrays ((dats m 0 c).arrAt · 0) := by
  refine BIBase.Entails.trans ?_ (arrays_iff m c (fun w => (dats m 0 c).arrAt w 0) rfl).2
  unfold arrBufs arrPts
  rw [← img_eq, show Finset.univ.image (arrRef spec2) = Finset.univ.map ⟨arrRef spec2, spec2_inj⟩ from (Finset.map_eq_image ⟨arrRef spec2, spec2_inj⟩ Finset.univ).symm, bigSep_map]
  exact Entails.of_eq (bigSep_congr fun w _ => by fin_cases w <;> rfl)

/-- The input windows' array is never written: after all the points it holds what it held. -/
theorem arrAt01 (c : Dev nD) : (dats m 0 c).arrAt 1 cfg0.N = (dats m 0 c).arrAt 0 cfg0.N :=
  ((dats m 0 c).arrAt_in 1 rfl _).trans ((dats m 0 c).arrAt_in 0 rfl _).symm

/-- At exit the pipeline's arrays are the two distinct arrays, whole. -/
theorem arraysN_iff (c : Dev nD) :
    (dats m 0 c).arrays (fun w => (dats m 0 c).arrAt w cfg0.N) ⊣⊢ (arrPts spec2 c (A2 m c) : sProp 𝕄) :=
  arrays_iff m c (fun w => (dats m 0 c).arrAt w cfg0.N) (arrAt01 m c)

theorem spec2_unscoped : ∀ w, (arrRef spec2 w).isScoped = false := by decide

theorem sfx_sub : ∀ ops ∈ ([hostOps1] : List (List (HloOp τ sig (Elt F)))), ∀ op ∈ ops,
    op.bufs ⊆ tailRefs sig Prefetch.none spec2 := by
  rw [tailRefs_none spec2 spec2_unscoped]
  intro ops hops op hop
  simp only [List.mem_cons, List.mem_nil_iff, or_false] at hops
  rcases hops with rfl
  · exact sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (arrRef spec2 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The run -/

set_option backward.isDefEq.respectTransparency.types false in
/-- Every weakly fair execution of the program terminates; each window's array ends at what the write-backs make
    of it, every other buffer as the host operations after the kernel leave it. -/
theorem run_main : θ_run defs (onTc (τ := τ) (main (F := F))) (s₀ m ρ) (fun r => ∀ c : Dev nD,
    (∀ w, r.2.mem ((spec0 w).arr.view.loc (c.tc : Thread nD τ)) = (dats m 0 c).arrAt w cfg0.N)
    ∧ ∀ b ∈ restRefs sig spec0, r.2.mem ((c.tc : Thread nD τ).loc b) = VT m c (Proc.devRef .tc b)) := by
  classical
  have hcell : Function.Injective (cellOf (nD := nD) (τ := τ) (pin (fun q => (cfgs q).toPCfg (Val := Elt F)) (fun q => (cfgs q).toPCfg_adm))) := cellOf_inj
  exact θ_run_region_noSem_pf_tail (fun q => (cfgs q).toPCfg (Val := Elt F)) (fun q => (cfgs q).toPCfg_adm) (dats m) () hcell (0 : Fin 1)
    winFacts₀0 (PreFacts.none _) emb₁ defs₀ Variants.none m ρ main (fun _ => chain [StableHlo.seq hostOps1])
    (fun c => (body_obligation m c).loose) block_pos0 arr_whole0 stage_whole0 (fun _ _ => rfl)
    (u₀ := initOf (cells (pin (fun q => (cfgs q).toPCfg (Val := Elt F)) (fun q => (cfgs q).toPCfg_adm)) hcell) (launchToks (pin (fun q => (cfgs q).toPCfg (Val := Elt F)) (fun q => (cfgs q).toPCfg_adm)) hcell))
    (hu₀ := Entails.rfl)
    (V := V m) (hmain := hmain m Variants.none) (hsplit := hsplit m) (hpf := fun _ k => k.elim0)
    (X := fun _ => iprop(emp)) (Y := fun _ => iprop(emp))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => VT m c (Proc.devRef .tc b)))
    (hX := fun c => by
      iintro H
      isplitr; · iempintro
      iexact H)
    (hin := fun c => (show _ ⊢ (scopedRest (Ix := Unit) (Name := ℕ) (U := UR sig nD τ) (Lvl := ℕ) (Val := Elt F) spec0 c : sProp 𝕄) from by
      iintro ⟨-, -, Hr⟩; iexact Hr).trans (hin m c))
    (hout := fun c => (hout m c).trans (by
      iintro Hr
      isplitr; · iempintro
      iexact Hr))
    (htail := fun c Q' => by
      rw [← rest_eq2 c, ← rest_eq2 c]
      iintro ⟨Hk, Hb, Ha, Hz⟩
      ihave Ha2 := (arraysN_iff m c).1 $$ Ha
      iapply (tail_seqs (fun q => (cfgs q).toPCfg (Val := Elt F)) defs₀ Variants.none Prefetch.none spec2 spec2_inj c (V0 m c) (A2 m c) [hostOps1] sfx_sub sfx_fresh sfx_keeps Q')
      isplitl [Hk]
      · iintro ⟨Ha', Hz'⟩
        iapply Hk
        isplitl [Ha']
        · iapply (arraysN_iff m c).2; iexact Ha'
        iexact Hz'
      isplitl [Hb]; · iexact Hb
      isplitl [Ha2]; · iexact Ha2
      iexact Hz)
    (QY := fun c s => ∀ b ∈ restRefsP sig Prefetch.none spec0, s.mem ((c.tc : Thread nD τ).loc b) = VT m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => VT m c (Proc.devRef .tc b)) s')
      isplitl [HU] <;> iassumption)
    (hQ := fun s h c => ⟨(h c).1, rest_of_restP Prefetch.none spec0 (fun k => k.elim0) c (fun b => VT m c (Proc.devRef .tc b)) s (fun k => k.elim0) (fun k => k.elim0) (h c).2.2⟩)

end Cert.Kernel.Fr

end
-- ==== Proof.BitsClaim.lean ====
/-
  The frame: the program runs to its end from any memory, and its two argument arrays end as they began — no
  host operation and no window of the kernel writes them.
-/
import proofs.«159862_j2027224563777_1_alg».proof.Proof.BitsLaunch

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

theorem VT_arg0 (c : Dev nD) : VT m c (Proc.devRef .tc main_arg0) = m ((c.tc : Thread nD τ).loc main_arg0) := by
  unfold VT
  simp only [hostOps1, List.flatten_cons, List.flatten_nil, List.append_nil]
  after_results
  rw [withArrays_of_ne spec2 c _ _ main_arg0 (by decide)]
  exact V_main_arg0 m c

theorem VT_arg1 (c : Dev nD) : VT m c (Proc.devRef .tc main_arg1) = m ((c.tc : Thread nD τ).loc main_arg1) := by
  unfold VT
  simp only [hostOps1, List.flatten_cons, List.flatten_nil, List.append_nil]
  after_results
  rw [withArrays_of_ne spec2 c _ _ main_arg1 (by decide)]
  exact V_main_arg1 m c

theorem arg0_rest : main_arg0 ∈ restRefs sig spec0 := by decide
theorem arg1_rest : main_arg1 ∈ restRefs sig spec0 := by decide
theorem v22_rest : main_v22 ∈ restRefs sig spec0 := by decide

/-- Every weakly fair execution terminates, nothing faulting, with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (VT_arg0 m c), ((h c).2 main_arg1 arg1_rest).trans (VT_arg1 m c)⟩)
    (run_main m ρ)

end Cert.Kernel.Fr

end
-- ==== Proof.IdealShared.lean ====
/-
  The tiled exponential-sum kernel's run, part one: what every later step is stated over.

  The program computes the scaled rows on the host (four stretches of host operations), hands the one array of
  8192 scaled rows to the kernel TWICE — once as the block of 1024 "row" vectors chosen by the first grid
  coordinate, once as the block of 1024 "column" vectors chosen by the second —, and after the kernel finishes
  the loss on the host.  The kernel keeps a 1 x 1024 accumulator between grid points: cleared when the second
  coordinate is 0, added to at every point, copied to the output block when the second coordinate is 7.

  Here: the buffers' contents when the kernel is entered; each window's block at a grid point; the two
  conditions in closed form over the 64 points; where the output window is idle.
-/
import proofs.«159862_j2027224563777_1_alg».proof.Proof.Gen.KernelIdeal.Launch
import proofs.«159862_j2027224563777_1_alg».proof.Proof.Gen.KernelIdeal.Skeleton
import proofs.«159862_j2027224563777_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the kernel -/

/-- The buffers' contents when the kernel is entered: the launch contents after the four stretches of host operations. -/
abbrev V0 (c : Dev nD) : Valuation τ sig (Elt F) :=
  StableHlo.after (List.flatten [hostOps0, hostOps0_1, hostOps0_2, hostOps0_3]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host operations before the kernel, the kernel, the host operations after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- The host operations before the kernel do not write the first argument array. -/
theorem V_main_arg0 (c : Dev nD) : V m c main_arg0 = m ((c : Thread nD τ).loc main_arg0) := by
  dsimp only [V, V0]
  simp only [hostOps0, hostOps0_1, hostOps0_2, hostOps0_3, List.flatten_cons, List.flatten_nil, List.append_nil, List.cons_append, List.nil_append]
  after_results
/-- Nor the second. -/
theorem V_main_arg1 (c : Dev nD) : V m c main_arg1 = m ((c : Thread nD τ).loc main_arg1) := by
  dsimp only [V, V0]
  simp only [hostOps0, hostOps0_1, hostOps0_2, hostOps0_3, List.flatten_cons, List.flatten_nil, List.append_nil, List.cons_append, List.nil_append]
  after_results

/-! ## The windows' blocks -/

/-- Window `w`'s block at point `t`, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The "row" window's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- So does the "column" window's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions, over the 64 points -/

/-- "The second grid coordinate is 0": the accumulator is cleared. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "The second grid coordinate is 7": the accumulator is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last column step the output window is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- At the last column step it is live. -/
theorem liveAt0_2 : ∀ t : Fin cfg0.N, cond0_1 (grid0.coords t) → cfg0.idle 2 (grid0.coords t) = false := by decide +kernel

/-! ## The staging and scratch buffers at a point -/

abbrev VO0_2 : View sig .tc .vmem S1x1024 .f32 := (Memref.whole cc0_stg2_0 : Memref sig .tc .vmem S1x1024 .f32).view
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
/-- The accumulator: a whole buffer of the kernel's own, passed beside the windows. -/
abbrev scM0_0 : Memref sig .tc .vmem S1x1024 .f32 := Memref.whole cc0_scratch0
abbrev VS0_0 : View sig .tc .vmem S1x1024 .f32 := scM0_0.view

/-- What the kernel's body may use besides its windows: the accumulator, whole, at some contents. -/
theorem PhiR0_eq (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

end Cert.KernelIdeal.Fr

end
-- ==== Proof.IdealRunA.lean ====
/-
  The kernel's body run once, on any whole staging buffers, when the second grid coordinate is 0 (the accumulator is cleared, then added to; nothing is copied out):
  the stores it leaves in the accumulator (and, at the last column step, in the output block) are found by running it.
-/
import proofs.«159862_j2027224563777_1_alg».proof.Proof.IdealShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave, last first, with the proof that from whole buffers — the two input blocks at
    `x0`, `x1`, the accumulator at anything, the output block handed back untouched — the body runs to its end. -/
noncomputable def kernelRun0_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i)
    (x0 x1 : Vec F S1024x128 .bf16) :
    Σ' (L2 : List (View.Piece (Elt F) S1x1024 .f32)), { LS0 : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.IdealRunB.lean ====
/-
  The kernel's body run once, on any whole staging buffers, when the second grid coordinate is neither 0 nor 7 (the accumulator is added to; nothing is copied out):
  the stores it leaves in the accumulator (and, at the last column step, in the output block) are found by running it.
-/
import proofs.«159862_j2027224563777_1_alg».proof.Proof.IdealShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave, last first, with the proof that from whole buffers — the two input blocks at
    `x0`, `x1`, the accumulator at what the point before left, the output block handed back untouched — the body runs to its end. -/
noncomputable def kernelRun0_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i)
    (x0 x1 : Vec F S1024x128 .bf16) (xs0 : Vec F S1x1024 .f32) :
    Σ' (L2 : List (View.Piece (Elt F) S1x1024 .f32)), { LS0 : List (View.Piece (Elt F) S1x1024 .f32) //
      ∀ (xi2 : Vec F S1x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨[], ?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.IdealRunC.lean ====
/-
  The kernel's body run once, on any whole staging buffers, when the second grid coordinate is 7 (the accumulator is added to, then copied into the output block):
  the stores it leaves in the accumulator (and, at the last column step, in the output block) are found by running it.
-/
import proofs.«159862_j2027224563777_1_alg».proof.Proof.IdealShared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave, last first, with the proof that from whole buffers — the two input blocks at
    `x0`, `x1`, the accumulator at what the point before left, the output block at anything — the body runs to its end. -/
noncomputable def kernelRun0_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i)
    (x0 x1 : Vec F S1024x128 .bf16) (xs0 : Vec F S1x1024 .f32) :
    Σ' (L2 : List (View.Piece (Elt F) S1x1024 .f32)), { LS0 : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.IdealFrame.lean ====
/-
  The tiled exponential-sum kernel's run, part two: what the accumulator and the output block hold after each
  of the 64 grid points (by recursion on the point), the proof data of the pipeline over them, and the body's
  obligation at every point — the three cases of the two conditions, each closed by that case's run.
-/
import proofs.«159862_j2027224563777_1_alg».proof.Proof.IdealRunA
import proofs.«159862_j2027224563777_1_alg».proof.Proof.IdealRunB
import proofs.«159862_j2027224563777_1_alg».proof.Proof.IdealRunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- Case A's stores into the accumulator cover it. -/
theorem scover0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 x1 : Vec F S1024x128 .bf16) (y : S1x1024.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1x1024.size (by sl_kernel_rfl) y
/-- What case A leaves in the accumulator. -/
def sout0_A_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 x1 : Vec F S1024x128 .bf16) : Vec F S1x1024 .f32 :=
  VS0_0.read (Elt F) (VS0_0.writes (Elt F) VS0_0.junk (kernelRun0_A c i arg2 harg2 arg3 harg3 arg4 harg4 arg5 harg5 hc0 hc1 x0 x1).2.1)

theorem scover0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 x1 : Vec F S1024x128 .bf16) (xs0 : Vec F S1x1024 .f32) (y : S1x1024.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1x1024.size (by sl_kernel_rfl) y
/-- What case B leaves in the accumulator. -/
def sout0_B_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 x1 : Vec F S1024x128 .bf16) (xs0 : Vec F S1x1024 .f32) : Vec F S1x1024 .f32 :=
  VS0_0.read (Elt F) (VS0_0.writes (Elt F) VS0_0.junk (kernelRun0_B c i arg2 harg2 arg3 harg3 arg4 harg4 arg5 harg5 hc0 hc1 x0 x1 xs0).2.1)

theorem cover0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) (y : S1x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1024.size (by sl_kernel_rfl) y
/-- What case C leaves in the output block. -/
def out0_C_2 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) : Vec F S1x1024 .f32 :=
  VO0_2.read (Elt F) (VO0_2.writes (Elt F) VO0_2.junk (kernelRun0_C c i arg2 harg2 arg3 harg3 arg4 harg4 arg5 harg5 hc0 hc1 x0 x1 xs0).1)
theorem scover0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) (y : S1x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1x1024.size (by sl_kernel_rfl) y
/-- What case C leaves in the accumulator. -/
def sout0_C_0 (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) : Vec F S1x1024 .f32 :=
  VS0_0.read (Elt F) (VS0_0.writes (Elt F) VS0_0.junk (kernelRun0_C c i arg2 harg2 arg3 harg3 arg4 harg4 arg5 harg5 hc0 hc1 x0 x1 xs0).2.1)

/-! ## Point by point -/

/-- A placeholder for the output block where the body stores nothing into it (never consulted there). -/
def idleOut : Vec F S1x1024 .f32 := VO0_2.read (Elt F) VO0_2.junk

/-- What the output block and the accumulator hold after the body at position `n`: the case the closed forms select,
    run on that point's input blocks, over the accumulator the point before left. -/
def outsAt0 (c : Dev nD) : (n : ℕ) → n < cfg0.N → Vec F S1x1024 .f32 × Vec F S1x1024 .f32
  | 0, hn => (idleOut, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 8 = 0 then
      if h1 : (n + 1) % 8 = 7 then
        False.elim (by omega)
      else
        (idleOut, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (idleOut, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 m c t.val t.isLt = (idleOut, sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = (idleOut, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The kernel's invariant before position `n`: before the first point the accumulator at anything; afterwards at
    what the point before left in it; nothing else. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM0_0 fullShare ((outsAt0 m c n hn).2)

theorem PhiS_zero (c : Dev nD) (n : ℕ) (h : n ≤ cfg0.N) (hz : n = 0) : PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = owns (c : Thread nD τ) scM0_0 fullShare ((outsAt0 m c n hn).2) := rfl
theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The arrays as the kernel finds them; after the body each input's buffer at its block, the output's at `outsAt0`;
    the two input windows read ONE array, each at half the share; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the closed forms say which case the point is in, and that case's run applies; the
    invariant hands the body the accumulator at what the point before left and takes it back at this point's. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val % 8 = 0
  · have h1 : ¬t.val % 8 = 7 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    by_cases hz : t.val = 0
    · rw [PhiS_castSucc m c t, PhiS_zero m c _ _ hz, PhiR0_eq]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
    · rw [PhiS_castSucc m c t, PhiS_pos m c _ _ hz]
      iintro ⟨HS0, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0]
      · unfold owns; iexists _; isplitr
        swap; · iexact HS0
        ipureintro; exact View.read_writes_of_cover _ _ _ _ _ (scover0_A_0 c _ _ _ _ _ _ _ _ _ _ _ _ _)
      isplitl [Ho]; · iexact Ho
      isplitl [H0]; · iexact H0
      isplitl [H1]; · iexact H1
      iexists _; iexact H2
  · have hz : t.val ≠ 0 := fun e => h0 (by rw [e])
    by_cases h1 : t.val % 8 = 7
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ hz]
      iintro ⟨HS0, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _)
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ hz]
      iintro ⟨HS0, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _)
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, PhiR0_eq]
  iintro HS0
  iexists _; iexact HS0

theorem hout (c : Dev nD) : (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 64 := N_0; omega)

end Cert.KernelIdeal.Fr

end
-- ==== Proof.IdealLaunch.lean ====
/-
  The tiled exponential-sum kernel's run, part three: the launch.

  The kernel's two input windows read ONE array (the 8192 scaled rows), so at entry that array's ownership is split
  in two halves, one per window, and joined again at exit before the host operations after the kernel run.  The
  result: every weakly fair execution of the program terminates; each window's array ends at what the write-backs
  make of it, and every other buffer ends as the host operations after the kernel leave it.
-/
import proofs.«159862_j2027224563777_1_alg».proof.Proof.IdealFrame

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The two distinct arrays behind the three windows -/

/-- The array of scaled rows and the output array, once each. -/
abbrev spec2 : Fin 2 → Pipeline.WinSpec sig grid0.rank := fun | 0 => spec0 0 | 1 => spec0 2 | ⟨_ + 2, h⟩ => absurd h (Nat.not_lt.2 (Nat.le_add_left _ _))
theorem spec2_inj : Function.Injective (arrRef spec2) := by decide
theorem img_eq : Finset.univ.image (arrRef spec2) = Finset.univ.image (arrRef spec0) := by decide

theorem bigSep_F2 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- The two arrays' contents when the host operations after the kernel start. -/
def A2 (c : Dev nD) : (w : Fin 2) → Buf (Elt F) ((spec2 w).arr.view.loc (c.tc : Thread nD τ)) := fun w => match w with
  | ⟨0, _⟩ => (dats m 0 c).arrAt 0 cfg0.N
  | ⟨1, _⟩ => (dats m 0 c).arrAt 2 cfg0.N

/-- Every buffer's contents at the end: the host operations after the kernel, from the kernel's exit. -/
def VT (c : Dev nD) : Valuation τ sig (Elt F) :=
  StableHlo.after (List.flatten [hostOps1]) (withArrays spec2 c (V0 m c) (A2 m c))

/-! ## Splitting and joining the shared array -/

theorem share0 (c : Dev nD) : (dats m 0 c).share 0 = fullShare.left := rfl
theorem share1 (c : Dev nD) : (dats m 0 c).share 1 = fullShare.right := rfl
theorem share2 (c : Dev nD) : (dats m 0 c).share 2 = fullShare := rfl

/-- The pipeline's three arrays at contents `G`, the two input windows' equal, are the two distinct arrays whole. -/
theorem arrays_iff (c : Dev nD) (G : (w : Fin cfg0.W) → Buf (Elt F) ((cfg0.win w).arr.view.loc (c.tc : Thread nD τ)))
    (h01 : G 1 = G 0) :
    (dats m 0 c).arrays G ⊣⊢ (arrPts spec2 c (fun w => match w with | ⟨0, _⟩ => G 0 | ⟨1, _⟩ => G 2) : sProp 𝕄) := by
  unfold Dat.arrays arrPts
  rw [bigSep_W0, bigSep_F2, (arr_whole0 0).set_eq_univ, (arr_whole0 2).set_eq_univ, share0, share1, share2, h01]
  constructor
  · iintro ⟨Hl, Hr, H2⟩
    isplitl [Hl Hr]
    · iapply (pointsTo_share (PosShare.mem_left_op_right fullShare)).2
      isplitl [Hl]; · iexact Hl
      iexact Hr
    iexact H2
  · iintro ⟨H, H2⟩
    ihave H' := (pointsTo_share (PosShare.mem_left_op_right fullShare)).1 $$ H
    icases H' with ⟨Hl, Hr⟩
    isplitl [Hl]; · iexact Hl
    isplitl [Hr]; · iexact Hr
    iexact H2

/-! ## The kernel's entry and exit -/

theorem rest_eq2 (c : Dev nD) (W : (b : Ref sig .tc) → Buf (Elt F) ((c.tc : Thread nD τ).loc b)) :
    (unscopedRestP Prefetch.none spec2 c W : sProp 𝕄) = unscopedRestP Prefetch.none spec0 c W := by
  unfold unscopedRestP; rw [img_eq]

/-- At entry the buffers behind the arrays, whole, make the pipeline's arrays: the shared one split in two halves. -/
theorem hsplit (c : Dev nD) : (arrBufs spec0 c (V m c) : sProp 𝕄) ⊢ (dats m 0 c).arrays ((dats m 0 c).arrAt · 0) := by
  refine BIBase.Entails.trans ?_ (arrays_iff m c (fun w => (dats m 0 c).arrAt w 0) rfl).2
  unfold arrBufs arrPts
  rw [← img_eq, show Finset.univ.image (arrRef spec2) = Finset.univ.map ⟨arrRef spec2, spec2_inj⟩ from (Finset.map_eq_image ⟨arrRef spec2, spec2_inj⟩ Finset.univ).symm, bigSep_map]
  exact Entails.of_eq (bigSep_congr fun w _ => by fin_cases w <;> rfl)

/-- The input windows' array is never written: after all the points it holds what it held. -/
theorem arrAt01 (c : Dev nD) : (dats m 0 c).arrAt 1 cfg0.N = (dats m 0 c).arrAt 0 cfg0.N :=
  ((dats m 0 c).arrAt_in 1 rfl _).trans ((dats m 0 c).arrAt_in 0 rfl _).symm

/-- At exit the pipeline's arrays are the two distinct arrays, whole. -/
theorem arraysN_iff (c : Dev nD) :
    (dats m 0 c).arrays (fun w => (dats m 0 c).arrAt w cfg0.N) ⊣⊢ (arrPts spec2 c (A2 m c) : sProp 𝕄) :=
  arrays_iff m c (fun w => (dats m 0 c).arrAt w cfg0.N) (arrAt01 m c)

theorem spec2_unscoped : ∀ w, (arrRef spec2 w).isScoped = false := by decide

theorem sfx_sub : ∀ ops ∈ ([hostOps1] : List (List (HloOp τ sig (Elt F)))), ∀ op ∈ ops,
    op.bufs ⊆ tailRefs sig Prefetch.none spec2 := by
  rw [tailRefs_none spec2 spec2_unscoped]
  intro ops hops op hop
  simp only [List.mem_cons, List.mem_nil_iff, or_false] at hops
  rcases hops with rfl
  · exact sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (arrRef spec2 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-! ## The run -/

set_option backward.isDefEq.respectTransparency.types false in
/-- Every weakly fair execution of the program terminates; each window's array ends at what the write-backs make
    of it, every other buffer as the host operations after the kernel leave it. -/
theorem run_main : θ_run defs (onTc (τ := τ) (main (F := F))) (s₀ m ρ) (fun r => ∀ c : Dev nD,
    (∀ w, r.2.mem ((spec0 w).arr.view.loc (c.tc : Thread nD τ)) = (dats m 0 c).arrAt w cfg0.N)
    ∧ ∀ b ∈ restRefs sig spec0, r.2.mem ((c.tc : Thread nD τ).loc b) = VT m c (Proc.devRef .tc b)) := by
  classical
  have hcell : Function.Injective (cellOf (nD := nD) (τ := τ) (pin (fun q => (cfgs q).toPCfg (Val := Elt F)) (fun q => (cfgs q).toPCfg_adm))) := cellOf_inj
  exact θ_run_region_noSem_pf_tail (fun q => (cfgs q).toPCfg (Val := Elt F)) (fun q => (cfgs q).toPCfg_adm) (dats m) () hcell (0 : Fin 1)
    winFacts₀0 (PreFacts.none _) emb₁ defs₀ Variants.none m ρ main (fun _ => chain [StableHlo.seq hostOps1])
    (fun c => (body_obligation m c).loose) block_pos0 arr_whole0 stage_whole0 (fun _ _ => rfl)
    (u₀ := initOf (cells (pin (fun q => (cfgs q).toPCfg (Val := Elt F)) (fun q => (cfgs q).toPCfg_adm)) hcell) (launchToks (pin (fun q => (cfgs q).toPCfg (Val := Elt F)) (fun q => (cfgs q).toPCfg_adm)) hcell))
    (hu₀ := Entails.rfl)
    (V := V m) (hmain := hmain m Variants.none) (hsplit := hsplit m) (hpf := fun _ k => k.elim0)
    (X := fun _ => iprop(emp)) (Y := fun _ => iprop(emp))
    (Z := fun c => unscopedRestP (Ix := Unit) (Name := ℕ) (U := UR sig nD τ) (Lvl := ℕ) Prefetch.none spec0 c (V m c))
    (Z' := fun c => unscopedRestP (Ix := Unit) (Name := ℕ) (U := UR sig nD τ) (Lvl := ℕ) Prefetch.none spec0 c (fun b => VT m c (Proc.devRef .tc b)))
    (hX := fun c => by
      iintro H
      isplitr; · iempintro
      iexact H)
    (hin := fun c => (show _ ⊢ (scopedRest (Ix := Unit) (Name := ℕ) (U := UR sig nD τ) (Lvl := ℕ) (Val := Elt F) spec0 c : sProp 𝕄) from by
      iintro ⟨-, -, Hr⟩; iexact Hr).trans (hin m c))
    (hout := fun c => (hout m c).trans (by
      iintro Hr
      isplitr; · iempintro
      iexact Hr))
    (htail := fun c Q' => by
      rw [← rest_eq2 c, ← rest_eq2 c]
      iintro ⟨Hk, Hb, Ha, Hz⟩
      ihave Ha2 := (arraysN_iff m c).1 $$ Ha
      iapply (tail_seqs (fun q => (cfgs q).toPCfg (Val := Elt F)) defs₀ Variants.none Prefetch.none spec2 spec2_inj c (V0 m c) (A2 m c) [hostOps1] sfx_sub sfx_fresh sfx_keeps Q')
      isplitl [Hk]
      · iintro ⟨Ha', Hz'⟩
        iapply Hk
        isplitl [Ha']
        · iapply (arraysN_iff m c).2; iexact Ha'
        iexact Hz'
      isplitl [Hb]; · iexact Hb
      isplitl [Ha2]; · iexact Ha2
      iexact Hz)
    (QY := fun c s => ∀ b ∈ restRefsP sig Prefetch.none spec0, s.mem ((c.tc : Thread nD τ).loc b) = VT m c (Proc.devRef .tc b))
    (hY := fun c s' => by
      iintro ⟨-, HU, HSI⟩
      unfold unscopedRestP
      imodintro
      iapply (pointsTo_read_all (restRefsP sig Prefetch.none spec0) (fun b => (c.tc : Thread nD τ).loc b) (fun b => VT m c (Proc.devRef .tc b)) s')
      isplitl [HU] <;> iassumption)
    (hQ := fun s h c => ⟨(h c).1, rest_of_restP Prefetch.none spec0 (fun k => k.elim0) c (fun b => VT m c (Proc.devRef .tc b)) s (fun k => k.elim0) (fun k => k.elim0) (h c).2.2⟩)

end Cert.KernelIdeal.Fr

end
-- ==== Proof.IdealClaim.lean ====
/-
  The frame: the program runs to its end from any memory, and its two argument arrays end as they began — no
  host operation and no window of the kernel writes them.
-/
import proofs.«159862_j2027224563777_1_alg».proof.Proof.IdealLaunch

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

theorem VT_arg0 (c : Dev nD) : VT m c (Proc.devRef .tc main_arg0) = m ((c.tc : Thread nD τ).loc main_arg0) := by
  unfold VT
  simp only [hostOps1, List.flatten_cons, List.flatten_nil, List.append_nil]
  after_results
  rw [withArrays_of_ne spec2 c _ _ main_arg0 (by decide)]
  exact V_main_arg0 m c

theorem VT_arg1 (c : Dev nD) : VT m c (Proc.devRef .tc main_arg1) = m ((c.tc : Thread nD τ).loc main_arg1) := by
  unfold VT
  simp only [hostOps1, List.flatten_cons, List.flatten_nil, List.append_nil]
  after_results
  rw [withArrays_of_ne spec2 c _ _ main_arg1 (by decide)]
  exact V_main_arg1 m c

theorem arg0_rest : main_arg0 ∈ restRefs sig spec0 := by decide
theorem arg1_rest : main_arg1 ∈ restRefs sig spec0 := by decide
theorem v22_rest : main_v22 ∈ restRefs sig spec0 := by decide

/-- Every weakly fair execution terminates, nothing faulting, with both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 arg0_rest).trans (VT_arg0 m c), ((h c).2 main_arg1 arg1_rest).trans (VT_arg1 m c)⟩)
    (run_main m ρ)

end Cert.KernelIdeal.Fr

end
-- ==== Proof.IdealPieces.lean ====
/-
  The values the kernel's three cases leave: in every case the accumulator ends at the body's one sum
  `old + (column sums of the masked exponentials of this tile)` of the two input blocks, where `old` is the zero
  block when the second grid coordinate is 0 and what the point before left otherwise; at the last column step
  the output block is a copy of it.
-/
import proofs.«159862_j2027224563777_1_alg».proof.Proof.IdealFrame
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Away from the first and last column steps: the accumulator plus this tile's column sums. -/
theorem sout_B (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : ¬cond0_1 i) (x0 x1 : Vec F S1024x128 .bf16) (xs0 : Vec F S1x1024 .f32) :
    sout0_B_0 c i arg2 harg2 arg3 harg3 arg4 harg4 arg5 harg5 hc0 hc1 x0 x1 xs0 = k0_pay2 i x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg2.read_unread, harg3.read_unread, harg5.read_unread, View.ld_unit_zero (S := S1024x128) hz, View.ld_unit_zero (S := S1x1024) hz]

/-- At the first column step: the zero block plus this tile's column sums. -/
theorem sout_A (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : cond0_0 i) (hc1 : ¬cond0_1 i) (x0 x1 : Vec F S1024x128 .bf16) :
    sout0_A_0 c i arg2 harg2 arg3 harg3 arg4 harg4 arg5 harg5 hc0 hc1 x0 x1 = k0_pay2 i x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1024) hz, View.readCov_unit_zero (S := S1x1024) _ hz]
  simp only [View.readAt_eq_ld, harg2.read_unread, harg3.read_unread, View.ld_unit_zero (S := S1024x128) hz]

/-- At the last column step the accumulator is the same sum, -/
theorem sout_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) :
    sout0_C_0 c i arg2 harg2 arg3 harg3 arg4 harg4 arg5 harg5 hc0 hc1 x0 x1 xs0 = k0_pay2 i x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg2.read_unread, harg3.read_unread, harg5.read_unread, View.ld_unit_zero (S := S1024x128) hz, View.ld_unit_zero (S := S1x1024) hz]

/-- and the output block is a copy of it. -/
theorem out_C (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024 .f32) (harg4 : arg4.IsWhole) (arg5 : Memref sig .tc .vmem S1x1024 .f32) (harg5 : arg5.IsWhole) (hc0 : ¬cond0_0 i) (hc1 : cond0_1 i) (x0 x1 : Vec F S1024x128 .bf16) (xs0 : Vec F S1x1024 .f32) :
    out0_C_2 c i arg2 harg2 arg3 harg3 arg4 harg4 arg5 harg5 hc0 hc1 x0 x1 xs0 = k0_pay2 i x0 x1 xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz, View.readCov_unit_zero (S := S1x1024) _ hz]
  simp only [View.readAt_eq_ld, harg2.read_unread, harg3.read_unread, harg5.read_unread, View.ld_unit_zero (S := S1024x128) hz, View.ld_unit_zero (S := S1x1024) hz]

end Cert.KernelIdeal.Fr

end
-- ==== Proof.IdealBlocks.lean ====
/-
  The three windows' blocks on the 8 x 8 grid.

  Point t has coordinates (t / 8, t % 8).  The "row" window's block at t is rows (t / 8) · 1024 … of the array of
  8192 scaled rows, the "column" window's block rows (t % 8) · 1024 …; the output window's block is columns
  (t / 8) · 1024 … of the 1 x 8192 result, written back when t % 8 = 7, and those eight blocks cover the result:
  column n lies in the block of point (n / 1024) · 8 + 7.  An element of a block sits, on each axis, at the block
  index times the block size plus its coordinate inside the block.
-/
import proofs.«159862_j2027224563777_1_alg».proof.Proof.IdealShared
import Idealize.ShloMosaic.Lib.ValueIdx

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx (ix2)

variable {F : FTy → Type} [FloatOps F]

variable (m : (ℓ : Loc nD τ sig) → Buf (Elt F) ℓ)

/-- The coordinates of point `t`. -/
theorem coords (t : Fin cfg0.N) : ((grid0.coords t) 0).val = t.val / 8 ∧ ((grid0.coords t) 1).val = t.val % 8 :=
  (by decide +kernel : ∀ t : Fin grid0.N, ((grid0.coords t) 0).val = t.val / 8 ∧ ((grid0.coords t) 1).val = t.val % 8) t

/-- The row window's block index at point `t`. -/
theorem index0 : ∀ t : Fin cfg0.N, win0_0.index t 0 = t.val / 8 ∧ win0_0.index t 1 = 0 :=
  (by decide +kernel : ∀ t : Fin grid0.N, win0_0.index t 0 = t.val / 8 ∧ win0_0.index t 1 = 0)

/-- The column window's block index at point `t`. -/
theorem index1 : ∀ t : Fin cfg0.N, win0_1.index t 0 = t.val % 8 ∧ win0_1.index t 1 = 0 :=
  (by decide +kernel : ∀ t : Fin grid0.N, win0_1.index t 0 = t.val % 8 ∧ win0_1.index t 1 = 0)

/-- The output window's block index at point `t`. -/
theorem index2 : ∀ t : Fin cfg0.N, win0_2.index t 0 = 0 ∧ win0_2.index t 1 = t.val / 8 :=
  (by decide +kernel : ∀ t : Fin grid0.N, win0_2.index t 0 = 0 ∧ win0_2.index t 1 = t.val / 8)

/-- The row window's block at point `t` reads rows `(t / 8) · 1024 + rr` of the scaled rows. -/
theorem iblk_row (c : Dev nD) (t : Fin cfg0.N) (rr : Fin 1024) (k : Fin 128) :
    (iblk m c 0 t : Vec F S1024x128 .bf16) (ix2 rr k)
      = V m c main_v11 (ix2 (⟨(t.val / 8) * 1024 + rr.val, by
          have hN : cfg0.N = 64 := N_0
          have := t.isLt; have := rr.isLt; omega⟩ : Fin 8192) k) := by
  have hi := index0 t
  unfold iblk
  rw [View.read_apply]
  show V m c main_v11 _ = V m c main_v11 _
  congr 1
  funext a
  apply Fin.ext
  match a with
  | ⟨0, _⟩ => show win0_0.index t 0 * 1024 + 1 * rr.val = (t.val / 8) * 1024 + rr.val; rw [hi.1]; omega
  | ⟨1, _⟩ => show win0_0.index t 1 * 128 + 1 * k.val = k.val; rw [hi.2]; omega

/-- The column window's block at point `t` reads rows `(t % 8) · 1024 + cc` of the scaled rows. -/
theorem iblk_col (c : Dev nD) (t : Fin cfg0.N) (cc : Fin 1024) (k : Fin 128) :
    (iblk m c 1 t : Vec F S1024x128 .bf16) (ix2 cc k)
      = V m c main_v11 (ix2 (⟨(t.val % 8) * 1024 + cc.val, by
          have := cc.isLt; omega⟩ : Fin 8192) k) := by
  have hi := index1 t
  unfold iblk
  rw [View.read_apply]
  show V m c main_v11 _ = V m c main_v11 _
  congr 1
  funext a
  apply Fin.ext
  match a with
  | ⟨0, _⟩ => show win0_1.index t 0 * 1024 + 1 * cc.val = (t.val % 8) * 1024 + cc.val; rw [hi.1]; omega
  | ⟨1, _⟩ => show win0_1.index t 1 * 128 + 1 * k.val = k.val; rw [hi.2]; omega

/-- The output window's block at point `t` reads columns `(t / 8) · 1024 + r` of a result array. -/
theorem read_out (c : Dev nD) (t : Fin cfg0.N) (G : Buf (Elt F) ((c.tc : Thread nD τ).loc main_v12)) (r : Fin 1024) :
    (((cfg0.win 2).blk t).view.read (Elt F) G : Vec F S1x1024 .f32) (ix2 (0 : Fin 1) r)
      = G (ix2 (0 : Fin 1) (⟨(t.val / 8) * 1024 + r.val, by
          have hN : cfg0.N = 64 := N_0
          have := t.isLt; have := r.isLt; omega⟩ : Fin 8192)) := by
  have hi := index2 t
  rw [View.read_apply]
  refine congrArg G ?_
  funext a
  apply Fin.ext
  match a with
  | ⟨0, _⟩ => show win0_2.index t 0 * 1 + 1 * (0 : Fin 1).val = (0 : Fin 1).val; rw [hi.1]; omega
  | ⟨1, _⟩ => show win0_2.index t 1 * 1024 + 1 * r.val = (t.val / 8) * 1024 + r.val; rw [hi.2]; omega

/-- An index of the result is in point `t`'s block iff each coordinate is in the block's range on its axis. -/
theorem mem_blk_out (t : Fin cfg0.N) (i : S1x8192.Idx) :
    i ∈ ((cfg0.win 2).blk t).view.set ↔ ∀ a : Fin 2, win0_2.index t a * S1x1024.size a ≤ (i a).val
      ∧ (i a).val < win0_2.index t a * S1x1024.size a + S1x1024.size a := by
  show i ∈ ((View.whole main_v12).slice (win0_2.rect t)).set ↔ _
  rw [View.set_slice_whole, Rect.mem_set_unit]
  exact Iff.rfl

/-- The blocks written back cover the result: column `n` is in the block of point `(n / 1024) · 8 + 7`. -/
theorem cover_out (c : Dev nD) : ∀ i : ((cfg0.win 2).arr.view.loc (c.tc : Thread nD τ)).2.ty.Idx,
    ∃ t : Fin cfg0.N, (cfg0.win 2).flush t = true ∧ i ∈ ((cfg0.win 2).blk t).view.set := by
  intro i
  have hN : cfg0.N = 64 := N_0
  have h0 : (i 0 : Nat) < 1 := (i 0).isLt
  have h1 : (i 1 : Nat) < 8192 := (i 1).isLt
  have hlt : (i 1 : Nat) / 1024 * 8 + 7 < cfg0.N := by omega
  have hidx := index2 ⟨(i 1 : Nat) / 1024 * 8 + 7, hlt⟩
  refine ⟨⟨(i 1 : Nat) / 1024 * 8 + 7, hlt⟩, (flush0_2 _).mpr (by show ((i 1 : Nat) / 1024 * 8 + 7) % 8 = 7; omega), ?_⟩
  rw [mem_blk_out]
  intro a
  match a with
  | ⟨0, _⟩ =>
    show win0_2.index ⟨(i 1 : Nat) / 1024 * 8 + 7, hlt⟩ 0 * 1 ≤ (i 0 : Nat)
      ∧ (i 0 : Nat) < win0_2.index ⟨(i 1 : Nat) / 1024 * 8 + 7, hlt⟩ 0 * 1 + 1
    rw [hidx.1]; omega
  | ⟨1, _⟩ =>
    show win0_2.index ⟨(i 1 : Nat) / 1024 * 8 + 7, hlt⟩ 1 * 1024 ≤ (i 1 : Nat)
      ∧ (i 1 : Nat) < win0_2.index ⟨(i 1 : Nat) / 1024 * 8 + 7, hlt⟩ 1 * 1024 + 1024
    rw [hidx.2]
    show ((i 1 : Nat) / 1024 * 8 + 7) / 8 * 1024 ≤ (i 1 : Nat) ∧ (i 1 : Nat) < ((i 1 : Nat) / 1024 * 8 + 7) / 8 * 1024 + 1024
    omega

end Cert.KernelIdeal.Fr

end
-- ==== Proof.Spec.lean ====
/-
  The NT-Xent loss of two batches of 4096 rows of 128 numbers, as two formulas over the extended reals.

  Each row is scaled to unit length (divided by the larger of its Euclidean norm and a small constant), the two
  batches are stacked into 8192 rows, and `sim r c` is the inner product of rows `r` and `c`.  Row `r`'s partner
  is row `r + 4096` (or `r - 4096`).  The loss is the mean over the rows of
  `log (sum over c ≠ r of exp (sim r c / T)) - sim r (partner r) / T` with `T = 1/2`.

  One program spells a row's term as `log D - p / T`, with the diagonal term of `D` replaced by zero and the
  division by `T` inside the sum written as a product with 2; the other as `- log (exp (p / T) / D)` with the diagonal
  term of `D` multiplied by `1 - 1`.  Both are stated here; that they agree on real rows is proved elsewhere.
-/
import Mathlib
import Idealize.ShloMosaic.PureOps.Ideal

noncomputable section

open scoped BigOperators

namespace Cert.NtXent

open Idealize.ShloMosaic

/-- The six float words the two programs use, read over the extended reals. -/
def wZero : EReal := Ideal.ofBits .f32 0x00000000#32
def wEps : EReal := Ideal.ofBits .f32 0x2B8CBCCC#32
def wHalf : EReal := Ideal.ofBits .f32 0x3F000000#32
def wOne : EReal := Ideal.ofBits .f32 0x3F800000#32
def wTwo : EReal := Ideal.ofBits .f32 0x40000000#32
def wCount : EReal := Ideal.ofBits .f32 0x46000000#32

/-- A batch of 4096 rows of 128 extended reals. -/
abbrev Batch := Fin 4096 → Fin 128 → EReal
/-- The stacked, scaled rows. -/
abbrev Rows := Fin 8192 → Fin 128 → EReal

/-- Row `i` of a batch scaled to unit length: each entry over the larger of the row's norm and the small constant. -/
def unitRow (x : Batch) (i : Fin 4096) (k : Fin 128) : EReal :=
  Ideal.div (x i k) (max (Ideal.sqrt (wZero + ∑ k' : Fin 128, x i k' * x i k')) wEps)

/-- The two scaled batches stacked: rows 0 … 4095 from the first, rows 4096 … 8191 from the second. -/
def stack (x0 x1 : Batch) : Rows := fun r k =>
  if h : r.val < 4096 then unitRow x0 ⟨r.val, h⟩ k else unitRow x1 ⟨r.val - 4096, by omega⟩ k

/-- The inner product of rows `r` and `c`. -/
def sim (z : Rows) (r c : Fin 8192) : EReal := ∑ k : Fin 128, z r k * z c k

/-! ## The first spelling: the diagonal term replaced by zero, `log D - p / T` -/

/-- Row `r`'s denominator: the sum over the other rows `c` of `exp (2 · sim c r)`. -/
def denA (z : Rows) (r : Fin 8192) : EReal :=
  ∑ c : Fin 8192, if r = c then wZero else Ideal.exp (sim z c r * wTwo)

/-- The inner product of row `i` of the first scaled batch with row `i` of the second. -/
def posA (x0 x1 : Batch) (i : Fin 4096) : EReal := wZero + ∑ k : Fin 128, unitRow x0 i k * unitRow x1 i k

/-- Row `r`'s term. -/
def termA (x0 x1 : Batch) (r : Fin 8192) : EReal :=
  Ideal.log (denA (stack x0 x1) r) - Ideal.div (posA x0 x1 ⟨r.val % 4096, Nat.mod_lt _ (by norm_num)⟩) wHalf

/-- The loss: the sum of the rows' terms over 8192. -/
def lossA (x0 x1 : Batch) : EReal := Ideal.div (wZero + ∑ r : Fin 8192, termA x0 x1 r) wCount

/-! ## The second spelling: the diagonal term multiplied by `1 - 1`, `- log (exp (p / T) / D)` -/

/-- Row `r`'s denominator: the sum over all rows `c` of `(1 - [r = c]) · exp (sim r c / T)`. -/
def denB (z : Rows) (r : Fin 8192) : EReal :=
  wZero + ∑ c : Fin 8192, (wOne - (if r = c then (1 : EReal) else 0)) * Ideal.exp (Ideal.div (sim z r c) wHalf)

/-- Row `r`'s partner: 4096 rows further on, or 4096 rows back. -/
def partner (r : Fin 8192) : Fin 8192 :=
  if h : r.val < 4096 then ⟨r.val + 4096, by omega⟩ else ⟨r.val - 4096, by omega⟩

/-- Row `r`'s term. -/
def termB (z : Rows) (r : Fin 8192) : EReal :=
  - Ideal.log (Ideal.div (Ideal.exp (Ideal.div (sim z r (partner r)) wHalf)) (denB z r))

/-- The loss: the sum of the rows' terms over 8192. -/
def lossB (z : Rows) : EReal := Ideal.div (wZero + ∑ r : Fin 8192, termB z r) wCount

end Cert.NtXent

end
-- ==== Proof.Words.lean ====
/-
  The six float words of the two loss formulas, evaluated: zero, one, two, one half, 8192, and a small
  positive real.
-/
import proofs.«159862_j2027224563777_1_alg».proof.Proof.Spec

noncomputable section

namespace Cert.NtXent

open Idealize.ShloMosaic

theorem wZero_eq : wZero = 0 := by simp [wZero, Ideal.ofBits, Ideal.ieee]

theorem wOne_eq : wOne = 1 := by
  simp [wOne, Ideal.ofBits, Ideal.ieee, -EReal.coe_mul]; norm_num

theorem wTwo_eq : wTwo = 2 := by
  simp [wTwo, Ideal.ofBits, Ideal.ieee, -EReal.coe_mul]; norm_num; norm_cast

theorem wHalf_eq : wHalf = ((1 / 2 : ℝ) : EReal) := by
  simp [wHalf, Ideal.ofBits, Ideal.ieee, -EReal.coe_mul]; norm_num

theorem wCount_eq : wCount = 8192 := by
  simp [wCount, Ideal.ofBits, Ideal.ieee, -EReal.coe_mul]; norm_num; norm_cast

/-- The small constant is a positive real. -/
theorem wEps_pos : ∃ e : ℝ, 0 < e ∧ wEps = (e : EReal) := by
  refine ⟨_, ?_, by simp [wEps, Ideal.ofBits, Ideal.ieee, -EReal.coe_mul]; rfl⟩
  positivity

end Cert.NtXent

end
-- ==== Proof.KAccum.lean ====
/-
  A row's denominator accumulated block by block.

  The 8192 columns are cut into 8 blocks of 1024.  At point t = 8·i + j the accumulator of row i·1024 + r gains the
  sum over block j's columns (restarting from zero when j = 0), so after the last block of row block i it holds the
  sum over all 8 blocks, which, re-indexed by c = j·1024 + cc, is the denominator of row i·1024 + r in the first
  spelling: the diagonal conditions agree because two rows are equal exactly when their numbers are.
-/
import proofs.«159862_j2027224563777_1_alg».proof.Proof.Words

noncomputable section

open scoped BigOperators

namespace Cert.NtXent

open Idealize.ShloMosaic

/-- Row number `n` of the stacked rows (zero past the last row). -/
def rowN (z : Rows) (n : ℕ) (k : Fin 128) : EReal := if h : n < 8192 then z ⟨n, h⟩ k else 0

/-- The contribution of column block `j` to the denominator of row `i · 1024 + r`. -/
def part (z : Rows) (i j : ℕ) (r : Fin 1024) : EReal :=
  ∑ cc : Fin 1024, if i * 1024 + r.val = j * 1024 + cc.val then wZero
    else Ideal.exp ((∑ k : Fin 128, rowN z (j * 1024 + cc.val) k * rowN z (i * 1024 + r.val) k) * wTwo)

/-- The accumulator of row `r` of the current row block after point `t`: it restarts at every multiple of 8. -/
def accAt (z : Rows) (r : Fin 1024) : ℕ → EReal
  | 0 => wZero + part z 0 0 r
  | n + 1 => (if (n + 1) % 8 = 0 then wZero else accAt z r n) + part z ((n + 1) / 8) ((n + 1) % 8) r

/-- A sum over the first `a · b` naturals is the sum over `a` blocks of `b`. -/
theorem sum_range_blocks {M : Type*} [AddCommMonoid M] (F : ℕ → M) (b : ℕ) :
    ∀ a : ℕ, ∑ n ∈ Finset.range (a * b), F n = ∑ j ∈ Finset.range a, ∑ m ∈ Finset.range b, F (j * b + m)
  | 0 => by simp
  | a + 1 => by
    rw [add_one_mul, Finset.sum_range_add, Finset.sum_range_succ, sum_range_blocks F b a]

/-- Below 8192 a row number names its row. -/
theorem rowN_val (z : Rows) (c : Fin 8192) (k : Fin 128) : rowN z c.val k = z c k := by
  unfold rowN; rw [dif_pos c.isLt]

/-- One step of the accumulation, at every point. -/
theorem accAt_step (z : Rows) (r : Fin 1024) (n : ℕ) :
    accAt z r n = (if n % 8 = 0 then wZero else accAt z r (n - 1)) + part z (n / 8) (n % 8) r := by
  cases n with
  | zero => rfl
  | succ n => rw [accAt, Nat.add_sub_cancel]

/-- Within row block `i` the accumulator after column block `j` is the sum of the first `j + 1` contributions. -/
theorem accAt_block (z : Rows) (r : Fin 1024) (i : ℕ) :
    ∀ j : ℕ, j < 8 → accAt z r (i * 8 + j) = ∑ j' ∈ Finset.range (j + 1), part z i j' r
  | 0, _ => by
    have h1 : (i * 8 + 0) / 8 = i := by omega
    have h2 : (i * 8 + 0) % 8 = 0 := by omega
    rw [accAt_step, h1, h2, if_pos rfl, wZero_eq, zero_add, Finset.sum_range_one]
  | j + 1, hj => by
    have h1 : (i * 8 + (j + 1)) / 8 = i := by omega
    have h2 : (i * 8 + (j + 1)) % 8 = j + 1 := by omega
    have h3 : i * 8 + (j + 1) - 1 = i * 8 + j := by omega
    rw [accAt_step, h1, h2, if_neg (Nat.succ_ne_zero j), h3, accAt_block z r i j (by omega),
      Finset.sum_range_succ _ (j + 1)]

/-- One term of a denominator, by row numbers. -/
def cell (z : Rows) (R n : ℕ) : EReal :=
  if R = n then wZero else Ideal.exp ((∑ k : Fin 128, rowN z n k * rowN z R k) * wTwo)

/-- A block's contribution as a sum of terms by row numbers. -/
theorem part_eq (z : Rows) (i j : ℕ) (r : Fin 1024) :
    part z i j r = ∑ m ∈ Finset.range 1024, cell z (i * 1024 + r.val) (j * 1024 + m) :=
  Fin.sum_univ_eq_sum_range (fun m => cell z (i * 1024 + r.val) (j * 1024 + m)) 1024

/-- The first spelling's denominator as a sum of terms by row numbers. -/
theorem denA_eq (z : Rows) (R : Fin 8192) : denA z R = ∑ n ∈ Finset.range 8192, cell z R.val n := by
  rw [← Fin.sum_univ_eq_sum_range (cell z R.val) 8192]
  unfold denA
  refine Finset.sum_congr rfl (fun c _ => ?_)
  unfold cell
  refine if_congr Fin.ext_iff rfl ?_
  unfold sim
  simp only [rowN_val]

/-- After the last column block the accumulator is the row's denominator. -/
theorem accAt_last (z : Rows) (i : Fin 8) (r : Fin 1024) :
    accAt z r (i.val * 8 + 7) = denA z ⟨i.val * 1024 + r.val, by omega⟩ := by
  have h8 : (7 + 1) * 1024 = 8192 := by norm_num
  rw [accAt_block z r i.val 7 (by norm_num), denA_eq, Finset.sum_congr rfl (fun j _ => part_eq z i.val j r),
    ← sum_range_blocks (cell z (i.val * 1024 + r.val)) 1024 (7 + 1), h8]

end Cert.NtXent

end
-- ==== Proof.KPayload.lean ====
import proofs.«159862_j2027224563777_1_alg».proof.Proof.Gen.KernelIdeal.Skeleton
import proofs.«159862_j2027224563777_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KVal

open Cert.KernelIdeal Cert.KernelIdeal.Gen Idealize.ShloMosaic Idealize.ShloMosaic.ValueIdx
open Idealize.ShloMosaic.TcCoe Idealize.SL.Sem Idealize.ShloMosaic.StableHlo
open Cert.NtXent

/-! ## Words: the row number against the column number -/

/-- Both numbers are below 8192, so as 32-bit words they are equal exactly when they are equal. -/
theorem select_rowcol {α : Type} (p q : Nat) (hp : p < 8) (hq : q < 8) (r c : Fin 1024) (A B : α) :
    Scalar.select
        (IntOp.cmpi .eq (IntOp.addi (Scalar.muli (BitVec.ofNat 32 p) 1024#32) (BitVec.ofNat 32 r.val))
          (IntOp.addi (Scalar.muli (BitVec.ofNat 32 q) 1024#32) (BitVec.ofNat 32 c.val))) A B
      = if p * 1024 + r.val = q * 1024 + c.val then A else B := by
  have hr := r.isLt
  have hc := c.isLt
  have e1 : IntOp.addi (Scalar.muli (BitVec.ofNat 32 p) 1024#32) (BitVec.ofNat 32 r.val)
      = BitVec.ofNat 32 (p * 1024 + r.val) := by
    show BitVec.ofNat 32 p * BitVec.ofNat 32 1024 + BitVec.ofNat 32 r.val = _
    rw [← BitVec.ofNat_mul, ← BitVec.ofNat_add]
  have e2 : IntOp.addi (Scalar.muli (BitVec.ofNat 32 q) 1024#32) (BitVec.ofNat 32 c.val)
      = BitVec.ofNat 32 (q * 1024 + c.val) := by
    show BitVec.ofNat 32 q * BitVec.ofNat 32 1024 + BitVec.ofNat 32 c.val = _
    rw [← BitVec.ofNat_mul, ← BitVec.ofNat_add]
  rw [e1, e2]
  by_cases h : p * 1024 + r.val = q * 1024 + c.val
  · rw [if_pos h, h]
    simp [IntOp.cmpi, Scalar.select]
  · rw [if_neg h]
    have hne : ¬ BitVec.ofNat 32 (p * 1024 + r.val) = BitVec.ofNat 32 (q * 1024 + c.val) := fun e => h (by
      have := congrArg BitVec.toNat e
      rw [BitVec.toNat_ofNat, BitVec.toNat_ofNat] at this
      omega)
    have hb : (BitVec.ofNat 32 (p * 1024 + r.val) == BitVec.ofNat 32 (q * 1024 + c.val)) = false :=
      beq_eq_false_iff_ne.mpr hne
    show (if BitVec.ofBool (BitVec.ofNat 32 (p * 1024 + r.val) == BitVec.ofNat 32 (q * 1024 + c.val)) = 1#1
      then A else B) = B
    rw [hb]
    exact if_neg (by decide)

/-! ## The body's two stored values at an index -/

/-- The cleared accumulator. -/
theorem pay1_at (r : Fin 1024) : k0_pay1 (F := Ideal) (ix2 (0 : Fin 1) r) = wZero := by
  unfold k0_pay1
  refine (congrFun (shapeCast_self _ _) _).trans ?_
  rfl

theorem lhs_dot_0 (j : S1024x1024.Idx) (q : dot_S1024x128_S128x1024_S1024x1024_1_0_0_1_n_n.contr.Idx) :
    (dot_S1024x128_S128x1024_S1024x1024_1_0_0_1_n_n.lhsIdx j q 0).val = (j 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl
theorem rhs_dot_1 (j : S1024x1024.Idx) (q : dot_S1024x128_S128x1024_S1024x1024_1_0_0_1_n_n.contr.Idx) :
    (dot_S1024x128_S128x1024_S1024x1024_1_0_0_1_n_n.rhsIdx j q 1).val = (j 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The product of the column block with the transposed row block: entry `(a, b)` is the inner product of column
    vector `a` with row vector `b`. -/
theorem scores_at (v3 v5 : FVec Ideal S1024x128 .bf16) (a b : Fin 1024) :
    matmul dot_S1024x128_S128x1024_S1024x1024_1_0_0_1_n_n none
        (shapeCast S1024x128 v5 shapeCasts_S1024x128_S1024x128)
        (transpose S128x1024 [1, 0] (shapeCast S1024x128 v3 shapeCasts_S1024x128_S1024x128)
          transposes_S1024x128_p1_0_S128x1024)
        (constant (F := Ideal) S1024x1024 .f32 0x00000000#32) (ix2 a b)
      = ∑ k : Fin 128, v5 (ix2 a k) * v3 (ix2 b k) := by
  rw [shapeCast_self, shapeCast_self]
  simp only [matmul]
  rw [Ideal.matmul_constant_zero_apply,
    ← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 a b)
      ((contrEquiv1 dot_S1024x128_S128x1024_S1024x1024_1_0_0_1_n_n 128 rfl rfl).symm k) = ix2 a k :=
    funext fun d => Fin.ext (by
      match d with
      | ⟨0, _⟩ => exact lhs_dot_0 _ _
      | ⟨1, _⟩ => exact (dot_S1024x128_S128x1024_S1024x1024_1_0_0_1_n_n.lhsIdx_val_of_single rfl _ _).trans hk)
  have er : dot_S1024x128_S128x1024_S1024x1024_1_0_0_1_n_n.rhsIdx (ix2 a b)
      ((contrEquiv1 dot_S1024x128_S128x1024_S1024x1024_1_0_0_1_n_n 128 rfl rfl).symm k) = ix2 k b :=
    funext fun d => Fin.ext (by
      match d with
      | ⟨0, _⟩ => exact (dot_S1024x128_S128x1024_S1024x1024_1_0_0_1_n_n.rhsIdx_val_of_single rfl _ _).trans hk
      | ⟨1, _⟩ => exact rhs_dot_1 _ _)
  rw [el, er]
  refine congrArg (v5 (ix2 a k) * ·) ?_
  exact transpose_apply [1, 0] v3 transposes_S1024x128_p1_0_S128x1024 (ix2 k b) (ix2 b k)
    (fun d => match d with | ⟨0, _⟩ => rfl | ⟨1, _⟩ => rfl)

/-- The exponentials with the diagonal entries replaced by zero. -/
theorem masked_at (i : grid0.Coords) (v3 v5 : FVec Ideal S1024x128 .bf16) (a b : Fin 1024) :
    select
      (cmpi .eq
        (addi (broadcast S1024x1024 (Scalar.muli (BitVec.ofNat 32 (i 0).val) 1024#32))
          (iota .tc S1024x1024 32 [1] iota_S1024x1024_d1_w32))
        (addi (broadcast S1024x1024 (Scalar.muli (BitVec.ofNat 32 (i 1).val) 1024#32))
          (iota .tc S1024x1024 32 [0] iota_S1024x1024_d0_w32)))
      (broadcast S1024x1024 (Scalar.ofBits (F := Ideal) .f32 0x00000000#32))
      (exp (mulf (matmul dot_S1024x128_S128x1024_S1024x1024_1_0_0_1_n_n none
              (shapeCast S1024x128 v5 shapeCasts_S1024x128_S1024x128)
              (transpose S128x1024 [1, 0] (shapeCast S1024x128 v3 shapeCasts_S1024x128_S1024x128)
                transposes_S1024x128_p1_0_S128x1024)
              (constant (F := Ideal) S1024x1024 .f32 0x00000000#32))
            (broadcast S1024x1024 (Scalar.ofBits (F := Ideal) .f32 0x40000000#32))))
      (ix2 a b)
    = if (i 0).val * 1024 + b.val = (i 1).val * 1024 + a.val then wZero
      else Ideal.exp ((∑ k : Fin 128, v5 (ix2 a k) * v3 (ix2 b k)) * wTwo) := by
  show Scalar.select
      (IntOp.cmpi .eq
        (IntOp.addi (Scalar.muli (BitVec.ofNat 32 (i 0).val) 1024#32)
          (iota .tc S1024x1024 32 [1] iota_S1024x1024_d1_w32 (ix2 a b)))
        (IntOp.addi (Scalar.muli (BitVec.ofNat 32 (i 1).val) 1024#32)
          (iota .tc S1024x1024 32 [0] iota_S1024x1024_d0_w32 (ix2 a b))))
      wZero
      (Ideal.exp (matmul dot_S1024x128_S128x1024_S1024x1024_1_0_0_1_n_n none
              (shapeCast S1024x128 v5 shapeCasts_S1024x128_S1024x128)
              (transpose S128x1024 [1, 0] (shapeCast S1024x128 v3 shapeCasts_S1024x128_S1024x128)
                transposes_S1024x128_p1_0_S128x1024)
              (constant (F := Ideal) S1024x1024 .f32 0x00000000#32) (ix2 a b) * wTwo)) = _
  rw [iota_single_apply, iota_single_apply, scores_at]
  exact select_rowcol (i 0).val (i 1).val (i 0).isLt (i 1).isLt b a _ _

/-- A sum down the columns of a square block. -/
theorem colsum_at (src : FVec Ideal S1024x1024 .f32) (hφ : FKind.Formats .f32)
    (hacc : (0x00000000#32 : BitVec 32) = FKind.add.neutral .f32 hφ) (r : Fin 1024) :
    multiReduction .add [0] S1024 src 0x00000000#32 reduces_S1024x1024_S1024 hφ hacc (ix1 r)
      = ∑ a : Fin 1024, src (ix2 a r) := by
  refine (Ideal.multiReduction_add_single src _ reduces_S1024x1024_S1024 hφ hacc (ix1 r)).trans ?_
  exact Finset.sum_congr rfl fun a _ =>
    congrArg src (funext fun d => Fin.ext (by match d with | ⟨0, _⟩ => rfl | ⟨1, _⟩ => rfl))

/-- The accumulator's next contents: what it held plus, for each row vector `r` of the row block, the sum over the
    column block's vectors of the exponential of twice their inner product, the vector itself left out. -/
theorem pay2_at (i : grid0.Coords) (v3 v5 : FVec Ideal S1024x128 .bf16) (v25 : FVec Ideal S1x1024 .f32) (r : Fin 1024) :
    k0_pay2 (F := Ideal) i v3 v5 v25 (ix2 (0 : Fin 1) r)
      = v25 (ix2 (0 : Fin 1) r)
        + ∑ cc : Fin 1024, (if (i 0).val * 1024 + r.val = (i 1).val * 1024 + cc.val then wZero
            else Ideal.exp ((∑ k : Fin 128, v5 (ix2 cc k) * v3 (ix2 r k)) * wTwo)) := by
  unfold k0_pay2
  refine (congrFun (shapeCast_self _ _) _).trans ?_
  refine congrArg (v25 (ix2 (0 : Fin 1) r) + ·) ?_
  refine (shapeCast_a_1a_apply _ _ 0 r).trans ?_
  refine (colsum_at _ _ _ r).trans ?_
  exact Finset.sum_congr rfl fun a _ => masked_at i v3 v5 a r

end Cert.KernelIdeal.KVal

end
-- ==== Proof.KTail.lean ====
import proofs.«159862_j2027224563777_1_alg».proof.Proof.Gen.KernelIdeal.Launch
import proofs.«159862_j2027224563777_1_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open scoped BigOperators

namespace Cert.KernelIdeal.KVal

open Cert.KernelIdeal Cert.KernelIdeal.Gen Idealize.ShloMosaic Idealize.ShloMosaic.ValueIdx
open Idealize.ShloMosaic.TcCoe Idealize.SL.Sem Idealize.ShloMosaic.StableHlo
open Cert.NtXent

/-! ## The host operations after the kernel, as one function

From the kernel's row of 8192 denominators `d` and the two arrays of scaled rows: the inner product of the two scaled
rows of each pair (twice over, once per half), the logarithm of each denominator less that inner product over one
half, summed, over 8192. -/

/-- The inner products of the paired scaled rows. -/
def rowDots (z4 z9 : FVec Ideal S4096x128 .f32) : FVec Ideal S4096 .f32 :=
  Host.reduceAdd (F := Ideal) (mulf z4 z9) (constant (F := Ideal) S_ .f32 0x00000000#32) reducesTo_S4096x128_S4096_d1 h_S_

/-- The fourteen operations composed. -/
def tail (d : FVec Ideal S1x8192 .f32) (z4 z9 : FVec Ideal S4096x128 .f32) : FVec Ideal S_ .f32 :=
  Host.divf (F := Ideal)
    (Host.reduceAdd (F := Ideal)
      (subf (Host.log (F := Ideal) (fun i => shapeCast S8192 d shapeCasts_S1x8192_S8192 i))
        (Host.divf (F := Ideal)
          (concatenate S8192 0 [⟨S4096, rowDots z4 z9⟩, ⟨S4096, rowDots z4 z9⟩] concatenates_S4096_S4096_S8192_d0)
          (broadcastInDim S8192 ![] bcast_S_S8192 (constant (F := Ideal) S_ .f32 0x3F000000#32))))
      (constant (F := Ideal) S_ .f32 0x00000000#32) reducesTo_S8192_S_d0 h_S_)
    (constant (F := Ideal) S_ .f32 0x46000000#32)

/-- What the result buffer holds after the fourteen operations, from any contents: `tail` of the three buffers they read. -/
theorem after_tail (W : Valuation τ sig (Elt Ideal)) :
    StableHlo.after (hostOps1 (F := Ideal)) W (Proc.devRef .tc main_v22)
      = tail (W (Proc.devRef .tc main_v12)) (W (Proc.devRef .tc main_v4)) (W (Proc.devRef .tc main_v9)) := by
  after_results
  rfl

/-! ## `tail` is the first spelling of the loss -/

theorem rowDots_at (z4 z9 : FVec Ideal S4096x128 .f32) (x0 x1 : Batch)
    (h4 : ∀ i k, z4 (ix2 i k) = unitRow x0 i k) (h9 : ∀ i k, z9 (ix2 i k) = unitRow x1 i k) (i : Fin 4096) :
    rowDots z4 z9 (ix1 i) = posA x0 x1 i := by
  unfold rowDots posA
  simp only [Host.reduceAdd, Ideal.hostReduceAdd_def]
  rw [Ideal.hostReduceAdd_single reducesTo_S4096x128_S4096_d1 (by decide)]
  refine congrArg₂ (· + ·) rfl (Finset.sum_congr rfl fun k _ => ?_)
  refine (congrArg (mulf z4 z9) (funext fun a => Fin.ext (by match a with | ⟨0, _⟩ => rfl | ⟨1, _⟩ => rfl))
    : _ = mulf z4 z9 (ix2 i k)).trans ?_
  exact congrArg₂ (· * ·) (h4 i k) (h9 i k)

/-- A vector of 4096 entries laid twice end to end reads, at `r`, its entry `r mod 4096`. -/
theorem twice_at (p : FVec Ideal S4096 .f32) (r : Fin 8192) :
    concatenate S8192 0 [⟨S4096, p⟩, ⟨S4096, p⟩] concatenates_S4096_S4096_S8192_d0 (ix1 r)
      = p (ix1 (⟨r.val % 4096, Nat.mod_lt _ (by norm_num)⟩ : Fin 4096)) := by
  have hr := r.isLt
  by_cases h : r.val < 4096
  · refine (concatenate_pair_apply_left _ _ _ concatenates_S4096_S4096_S8192_d0 (ix1 r) rfl
      (ix1 (⟨r.val, h⟩ : Fin 4096)) (fun b => match b with | ⟨0, _⟩ => rfl)).trans ?_
    exact congrArg p (congrArg ix1 (Fin.ext (by show r.val = r.val % 4096; omega)))
  · refine (concatenate_pair_apply_right _ _ _ concatenates_S4096_S4096_S8192_d0 (ix1 r) rfl rfl
      (ix1 (⟨r.val - 4096, by omega⟩ : Fin 4096))
      (fun b hb => match b, hb with | ⟨0, _⟩, hb => absurd (Fin.ext rfl) hb)
      (by show (r.val - 4096) + 4096 = r.val; omega)).trans ?_
    exact congrArg p (congrArg ix1 (Fin.ext (by show r.val - 4096 = r.val % 4096; omega)))

/-- A sum over the indices of a vector of 8192 entries is the sum over the entries' numbers. -/
theorem sum_idx1 (f : S8192.Idx → EReal) : ∑ j : S8192.Idx, f j = ∑ r : Fin 8192, f (ix1 r) := by
  refine (Equiv.sum_comp (⟨fun r => ix1 r, fun j => j 0, fun _ => rfl, fun j => (eq_ix1 j).symm⟩ : Fin 8192 ≃ S8192.Idx) f).symm

theorem tail_eq (d : FVec Ideal S1x8192 .f32) (z4 z9 : FVec Ideal S4096x128 .f32) (x0 x1 : Batch)
    (hd : ∀ r : Fin 8192, d (ix2 (0 : Fin 1) r) = denA (stack x0 x1) r)
    (h4 : ∀ i k, z4 (ix2 i k) = unitRow x0 i k) (h9 : ∀ i k, z9 (ix2 i k) = unitRow x1 i k) :
    tail d z4 z9 = fun _ => lossA x0 x1 := by
  funext j
  unfold tail lossA
  show Ideal.div (Host.reduceAdd (F := Ideal) _ _ reducesTo_S8192_S_d0 h_S_ j) _ = _
  refine congrArg₂ Ideal.div ?_ rfl
  simp only [Host.reduceAdd, Ideal.hostReduceAdd_def]
  rw [Ideal.hostReduceAdd_total reducesTo_S8192_S_d0 (fun b => b.elim0), sum_idx1]
  refine congrArg₂ (· + ·) rfl (Finset.sum_congr rfl fun r _ => ?_)
  show Ideal.log (shapeCast S8192 d shapeCasts_S1x8192_S8192 (ix1 r))
      - Ideal.div (concatenate S8192 0 [⟨S4096, rowDots z4 z9⟩, ⟨S4096, rowDots z4 z9⟩] concatenates_S4096_S4096_S8192_d0 (ix1 r))
          (broadcastInDim S8192 ![] bcast_S_S8192 (constant (F := Ideal) S_ .f32 0x3F000000#32) (ix1 r)) = _
  rw [shapeCast_1a_a_apply, hd, twice_at, rowDots_at z4 z9 x0 x1 h4 h9,
    broadcastInDim_apply _ bcast_S_S8192 _ (ix1 r) ix0 (fun a => a.elim0)]
  rfl

end Cert.KernelIdeal.KVal

end
-- ==== Proof.RefRows.lean ====
import proofs.«159862_j2027224563777_1_alg».proof.Proof.Gen.ReferenceIdeal.Read
import proofs.«159862_j2027224563777_1_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx
open Cert.NtXent

/-- A 4096 × 128 array read as a batch: row `i`, entry `k`. -/
def batchOf (x : FVec Ideal S4096x128 .f32) : Batch := fun i k => x (ix2 i k)

/-! ## The scaled rows

Each argument is divided, entry by entry, by the larger of its row's norm and the small constant: `unitRow`. -/

theorem v4_apply (x0 : FVec Ideal S4096x128 .f32) (i : Fin 4096) (k : Fin 128) :
    val_main_v4 (F := Ideal) x0 (ix2 i k) = unitRow (batchOf x0) i k := by
  rw [val_main_v4_apply, val_main_v3_apply, val_main_v2_apply, val_main_v0_apply, val_main_call0_v2_apply,
    val_main_call0_v1_apply, val_main_v1_apply, val_main_cst_apply, val_main_call0_cst_apply]
  have e : ∀ k', idx_main_call0_v1 (idx_main_call0_v2 (idx_main_v3 (ix2 i k))) k' = ix2 i k' := fun k' =>
    funext fun a => Fin.ext (by match a with | ⟨0, _⟩ => rfl | ⟨1, _⟩ => rfl)
  simp only [val_main_call0_v0_apply, e]
  rfl

theorem v9_apply (x1 : FVec Ideal S4096x128 .f32) (i : Fin 4096) (k : Fin 128) :
    val_main_v9 (F := Ideal) x1 (ix2 i k) = unitRow (batchOf x1) i k := by
  rw [val_main_v9_apply, val_main_v8_apply, val_main_v7_apply, val_main_v5_apply, val_main_call1_v2_apply,
    val_main_call1_v1_apply, val_main_v6_apply, val_main_cst_0_apply, val_main_call1_cst_apply]
  have e : ∀ k', idx_main_call1_v1 (idx_main_call1_v2 (idx_main_v8 (ix2 i k))) k' = ix2 i k' := fun k' =>
    funext fun a => Fin.ext (by match a with | ⟨0, _⟩ => rfl | ⟨1, _⟩ => rfl)
  simp only [val_main_call1_v0_apply, e]
  rfl

/-! ## The stacked rows: the first 4096 from the first argument, the rest from the second -/

theorem v10_apply (x0 x1 : FVec Ideal S4096x128 .f32) (r : Fin 8192) (k : Fin 128) :
    val_main_v10 (F := Ideal) x0 x1 (ix2 r k) = stack (batchOf x0) (batchOf x1) r k := by
  have hr := r.isLt
  unfold val_main_v10 stack
  by_cases h : r.val < 4096
  · rw [dif_pos h]
    refine (concatenate_pair_apply_left _ _ _ concatenates_S4096x128_S4096x128_S8192x128_d0 (ix2 r k) rfl
      (ix2 (⟨r.val, h⟩ : Fin 4096) k) (fun b => match b with | ⟨0, _⟩ => rfl | ⟨1, _⟩ => rfl)).trans ?_
    exact v4_apply x0 ⟨r.val, h⟩ k
  · rw [dif_neg h]
    refine (concatenate_pair_apply_right _ _ _ concatenates_S4096x128_S4096x128_S8192x128_d0 (ix2 r k) rfl rfl
      (ix2 (⟨r.val - 4096, by omega⟩ : Fin 4096) k)
      (fun b hb => match b, hb with | ⟨0, _⟩, hb => absurd (Fin.ext rfl) hb | ⟨1, _⟩, _ => rfl)
      (by show (r.val - 4096) + 4096 = r.val; omega)).trans ?_
    exact v9_apply x1 ⟨r.val - 4096, by omega⟩ k

/-! ## The square array of inner products -/

theorem v12_at (x0 x1 : FVec Ideal S4096x128 .f32) (r c : Fin 8192) :
    val_main_v12 (F := Ideal) x0 x1 (ix2 r c) = sim (stack (batchOf x0) (batchOf x1)) r c := by
  rw [val_main_v12_apply]
  unfold sim
  refine Finset.sum_congr rfl fun k _ => ?_
  rw [val_main_v11_apply]
  have e1 : lidx_main_v12 (ix2 r c) k = ix2 r k :=
    funext fun a => Fin.ext (by match a with | ⟨0, _⟩ => rfl | ⟨1, _⟩ => rfl)
  have e2 : idx_main_v11 (ridx_main_v12 (ix2 r c) k) = ix2 c k :=
    funext fun a => Fin.ext (by match a with | ⟨0, _⟩ => rfl | ⟨1, _⟩ => rfl)
  rw [e1, e2, v10_apply, v10_apply]

end Cert.ReferenceIdeal.RefValue

end
-- ==== Proof.KPrefix.lean ====
import proofs.«159862_j2027224563777_1_alg».proof.Proof.IdealShared
import proofs.«159862_j2027224563777_1_alg».proof.Proof.RefRows
import Idealize.ShloMosaic.Lib.StableHlo.Run

noncomputable section

open scoped BigOperators

namespace Cert.KernelIdeal.KVal

open Cert.KernelIdeal Cert.KernelIdeal.Gen Idealize.ShloMosaic Idealize.ShloMosaic.ValueIdx
open Idealize.ShloMosaic.TcCoe Idealize.SL.Sem Idealize.ShloMosaic.StableHlo
open Cert.NtXent

/-! ## The host operations before the kernel

They are the reference's own first operations — the rows' norms, the larger of each and the small constant, the
division, the two arrays stacked — and then a change of format, which is the identity on extended reals. -/

section
open Cert.KernelIdeal.Fr

variable (m : (ℓ : Loc nD τ sig) → Buf (Elt Ideal) ℓ)

theorem V_main_v4_eq (c : Dev nD) :
    V (F := Ideal) m c main_v4
      = Cert.ReferenceIdeal.Read.val_main_v4 (F := Ideal) (m ((c.tc : Thread nD τ).loc main_arg0)) := by
  dsimp only [V, V0]
  simp only [hostOps0, hostOps0_1, hostOps0_2, hostOps0_3, List.flatten_cons, List.flatten_nil, List.append_nil,
    List.cons_append, List.nil_append]
  after_results
  rfl

theorem V_main_v9_eq (c : Dev nD) :
    V (F := Ideal) m c main_v9
      = Cert.ReferenceIdeal.Read.val_main_v9 (F := Ideal) (m ((c.tc : Thread nD τ).loc main_arg1)) := by
  dsimp only [V, V0]
  simp only [hostOps0, hostOps0_1, hostOps0_2, hostOps0_3, List.flatten_cons, List.flatten_nil, List.append_nil,
    List.cons_append, List.nil_append]
  after_results
  rfl

theorem V_main_v11_eq (c : Dev nD) :
    V (F := Ideal) m c main_v11
      = Cert.ReferenceIdeal.Read.val_main_v10 (F := Ideal) (m ((c.tc : Thread nD τ).loc main_arg0))
          (m ((c.tc : Thread nD τ).loc main_arg1)) := by
  dsimp only [V, V0]
  simp only [hostOps0, hostOps0_1, hostOps0_2, hostOps0_3, List.flatten_cons, List.flatten_nil, List.append_nil,
    List.cons_append, List.nil_append]
  after_results
  rfl

/-- The first array of scaled rows, as the kernel's program finds it. -/
theorem V_main_v4_at (c : Dev nD) (i : Fin 4096) (k : Fin 128) :
    V (F := Ideal) m c main_v4 (ix2 i k)
      = unitRow (Cert.ReferenceIdeal.RefValue.batchOf (m ((c.tc : Thread nD τ).loc main_arg0))) i k := by
  rw [V_main_v4_eq]
  exact Cert.ReferenceIdeal.RefValue.v4_apply _ i k

/-- The second. -/
theorem V_main_v9_at (c : Dev nD) (i : Fin 4096) (k : Fin 128) :
    V (F := Ideal) m c main_v9 (ix2 i k)
      = unitRow (Cert.ReferenceIdeal.RefValue.batchOf (m ((c.tc : Thread nD τ).loc main_arg1))) i k := by
  rw [V_main_v9_eq]
  exact Cert.ReferenceIdeal.RefValue.v9_apply _ i k

/-- The stacked rows handed to the kernel. -/
theorem V_main_v11_at (c : Dev nD) (r : Fin 8192) (k : Fin 128) :
    V (F := Ideal) m c main_v11 (ix2 r k)
      = stack (Cert.ReferenceIdeal.RefValue.batchOf (m ((c.tc : Thread nD τ).loc main_arg0)))
          (Cert.ReferenceIdeal.RefValue.batchOf (m ((c.tc : Thread nD τ).loc main_arg1))) r k := by
  rw [V_main_v11_eq]
  exact Cert.ReferenceIdeal.RefValue.v10_apply _ _ r k

end

end Cert.KernelIdeal.KVal

end
-- ==== Proof.IdealValue.lean ====
/-
  The kernel program's result over the extended reals.

  The accumulator after grid point t (t = 8 i + j) holds, in lane r, the running sum over the column blocks 0 … j
  of this row block's masked exponential sums: the recursion `accAt`.  The output block written back at j = 7 is
  therefore row block i of the denominators `denA`, the blocks cover the output array, and the host operations after
  the kernel turn the denominators and the scaled rows into the loss `lossA`.
-/
import proofs.«159862_j2027224563777_1_alg».proof.Proof.IdealPieces
import proofs.«159862_j2027224563777_1_alg».proof.Proof.IdealLaunch
import proofs.«159862_j2027224563777_1_alg».proof.Proof.IdealBlocks
import proofs.«159862_j2027224563777_1_alg».proof.Proof.KAccum
import proofs.«159862_j2027224563777_1_alg».proof.Proof.KPayload
import proofs.«159862_j2027224563777_1_alg».proof.Proof.KTail
import proofs.«159862_j2027224563777_1_alg».proof.Proof.KPrefix
import Idealize.ShloMosaic.Lib.Pipeline.Value

set_option maxRecDepth 16384

noncomputable section

namespace Cert.KernelIdeal.Fr

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.KVal Cert.NtXent
open Cert.ReferenceIdeal.RefValue (batchOf)

variable (m : (ℓ : Loc nD τ sig) → Buf (Elt Ideal) ℓ) (ρ : Dev nD → PrngReg)

/-- The 8192 scaled rows as the kernel finds them. -/
def ZV (c : Dev nD) : Rows := fun r k => V (F := Ideal) m c main_v11 (ix2 r k)

theorem ZV_eq (c : Dev nD) : ZV m c = stack (batchOf (m ((c.tc : Thread nD τ).loc main_arg0))) (batchOf (m ((c.tc : Thread nD τ).loc main_arg1))) :=
  funext fun r => funext fun k => V_main_v11_at m c r k

/-- The body's sum at point `t`, lane `r`: the old accumulator's lane plus this tile's masked column sum. -/
theorem pay_at (c : Dev nD) (t : Fin cfg0.N) (old : FVec Ideal S1x1024 .f32) (r : Fin 1024) :
    k0_pay2 (F := Ideal) (grid0.coords t) (iblk m c 0 t) (iblk m c 1 t) old (ix2 (0 : Fin 1) r)
      = old (ix2 (0 : Fin 1) r) + part (ZV m c) (t.val / 8) (t.val % 8) r := by
  refine (pay2_at (grid0.coords t) (iblk m c 0 t) (iblk m c 1 t) old r).trans ?_
  refine congrArg (old (ix2 (0 : Fin 1) r) + ·) ?_
  unfold part
  refine Finset.sum_congr rfl fun cc _ => ?_
  rw [(coords t).1, (coords t).2]
  refine congrArg (fun x => if t.val / 8 * 1024 + r.val = t.val % 8 * 1024 + cc.val then wZero else Ideal.exp (x * wTwo)) ?_
  refine Finset.sum_congr rfl fun k _ => ?_
  rw [iblk_col m c t cc k, iblk_row m c t r k]
  have hN : t.val < 64 := lt_of_lt_of_eq t.isLt (show cfg0.N = 64 from N_0)
  have e1 : rowN (ZV m c) (t.val % 8 * 1024 + cc.val) k = ZV m c ⟨t.val % 8 * 1024 + cc.val, by omega⟩ k := rowN_val (ZV m c) ⟨_, _⟩ k
  have e2 : rowN (ZV m c) (t.val / 8 * 1024 + r.val) k = ZV m c ⟨t.val / 8 * 1024 + r.val, by omega⟩ k := rowN_val (ZV m c) ⟨_, _⟩ k
  rw [e1, e2]
  rfl

/-- THE ACCUMULATION: after point `n` the accumulator's lane `r` is `accAt`. -/
theorem acc_eq (c : Dev nD) : ∀ (n : ℕ) (h : n < cfg0.N) (r : Fin 1024),
    (outsAt0 (F := Ideal) m c n h).2 (ix2 (0 : Fin 1) r) = accAt (ZV m c) r n
  | 0, h, r => by
    rw [accAt_step, if_pos (Nat.zero_mod 8)]
    rw [outsAt0_A m c ⟨0, h⟩ rfl (show ¬(0 % 8 = 7) by decide)]
    dsimp only
    rw [sout_A]
    refine (pay_at m c ⟨0, h⟩ (k0_pay1 (F := Ideal)) r).trans ?_
    rw [pay1_at]
  | n + 1, h, r => by
    have hN : n + 1 < 64 := lt_of_lt_of_eq h (show cfg0.N = 64 from N_0)
    rw [accAt_step]
    by_cases h0 : (n + 1) % 8 = 0
    · have h1 : ¬(n + 1) % 8 = 7 := by omega
      rw [outsAt0_A m c ⟨n + 1, h⟩ h0 h1]
      dsimp only
      rw [sout_A]
      refine (pay_at m c ⟨n + 1, h⟩ (k0_pay1 (F := Ideal)) r).trans ?_
      rw [pay1_at, if_pos h0]
    · by_cases h1 : (n + 1) % 8 = 7
      · rw [outsAt0_C m c ⟨n + 1, h⟩ h0 h1]
        dsimp only
        rw [sout_C]
        refine (pay_at m c ⟨n + 1, h⟩ _ r).trans ?_
        rw [if_neg h0]
        exact congrArg (· + part (ZV m c) ((n + 1) / 8) ((n + 1) % 8) r) (acc_eq c n (Nat.lt_of_succ_lt h) r)
      · rw [outsAt0_B m c ⟨n + 1, h⟩ h0 h1]
        dsimp only
        rw [sout_B]
        refine (pay_at m c ⟨n + 1, h⟩ _ r).trans ?_
        rw [if_neg h0]
        exact congrArg (· + part (ZV m c) ((n + 1) / 8) ((n + 1) % 8) r) (acc_eq c n (Nat.lt_of_succ_lt h) r)

/-- At the last column step the output block is a copy of the accumulator. -/
theorem out_eq (c : Dev nD) (t : Fin cfg0.N) (h7 : t.val % 8 = 7) (r : Fin 1024) :
    (outsAt0 (F := Ideal) m c t.val t.isLt).1 (ix2 (0 : Fin 1) r) = accAt (ZV m c) r t.val := by
  have h0 : ¬t.val % 8 = 0 := by omega
  have hz : t.val ≠ 0 := fun e => h0 (by rw [e])
  rw [outsAt0_C m c t h0 h7]
  dsimp only
  rw [out_C]
  refine (pay_at m c t _ r).trans ?_
  rw [accAt_step, if_neg h0]
  exact congrArg (· + part (ZV m c) (t.val / 8) (t.val % 8) r) (acc_eq m c (t.val - 1) _ r)

/-- The denominators, as contents of the output array. -/
def Gout (c : Dev nD) : Buf (Elt Ideal) ((cfg0.win 2).arr.view.loc (c.tc : Thread nD τ)) :=
  fun j => denA (ZV m c) (j 1)

end Cert.KernelIdeal.Fr

end
-- ==== Proof.IdealResult.lean ====
/-
  The kernel program's result: each write-back of the output window writes one block of 1024 denominators, the
  eight blocks cover the output array, and the host operations after the kernel make the loss of them.
-/
import proofs.«159862_j2027224563777_1_alg».proof.Proof.IdealValue
import proofs.«159862_j2027224563777_1_alg».proof.Proof.IdealClaim

set_option maxRecDepth 16384

noncomputable section

namespace Cert.KernelIdeal.Fr

open Idealize.ShloMosaic Idealize.ShloMosaic.TcCoe Idealize.SL.Sem
open Idealize.ShloMosaic.Pipeline
open Idealize.ShloMosaic.ValueIdx
open Cert.KernelIdeal Cert.KernelIdeal.Gen Cert.KernelIdeal.KVal Cert.NtXent
open Cert.ReferenceIdeal.RefValue (batchOf)

variable (m : (ℓ : Loc nD τ sig) → Buf (Elt Ideal) ℓ) (ρ : Dev nD → PrngReg)

/-- What a write-back writes is its block of the denominators. -/
theorem flushed_eq (c : Dev nD) (t : Fin cfg0.N) (hf : (cfg0.win 2).flush t = true) :
    (dats (F := Ideal) m 0 c).flushed 2 t = ((cfg0.win 2).blk t).view.read (Elt Ideal) (Gout m c) := by
  have h7 : t.val % 8 = 7 := (flush0_2 t).mp hf
  have hN : t.val < 64 := lt_of_lt_of_eq t.isLt (show cfg0.N = 64 from N_0)
  show (cfg0.win 2).cut (grid0.coords t) ((dats (F := Ideal) m 0 c).after 2 t) = _
  rw [after0_2]
  funext y
  obtain ⟨z, r, rfl⟩ : ∃ (z : Fin 1) (r : Fin 1024), y = ix2 z r := ⟨y 0, y 1, eq_ix2 y⟩
  obtain rfl : z = 0 := Subsingleton.elim _ _
  refine (out_eq m c t h7 r).trans ?_
  refine Eq.trans ?_ (read_out c t (Gout m c) r).symm
  show _ = denA (ZV m c) ⟨t.val / 8 * 1024 + r.val, _⟩
  rw [← accAt_last (ZV m c) ⟨t.val / 8, by omega⟩ r]
  refine congrArg (accAt (ZV m c) r) ?_
  show t.val = t.val / 8 * 8 + 7
  omega

/-- So the output array ends at the denominators. -/
theorem final_out (c : Dev nD) : (dats (F := Ideal) m 0 c).arrAt 2 cfg0.N = Gout m c :=
  (dats (F := Ideal) m 0 c).arrAt_eq_of_cover 2 (Gout m c) (flushed_eq m c) (cover_out c)

/-- The program's result is the loss in its first spelling. -/
theorem VT_result (c : Dev nD) : VT (F := Ideal) m c (Proc.devRef .tc main_v22)
    = fun _ => lossA (batchOf (m ((c.tc : Thread nD τ).loc main_arg0))) (batchOf (m ((c.tc : Thread nD τ).loc main_arg1))) := by
  unfold VT
  simp only [List.flatten_cons, List.flatten_nil, List.append_nil]
  rw [after_tail, withArrays_arr spec2 spec2_inj c _ _ 1, withArrays_of_ne spec2 c _ _ main_v4 (by decide), withArrays_of_ne spec2 c _ _ main_v9 (by decide)]
  refine tail_eq _ _ _ _ _ (fun r => ?_) (fun i k => V_main_v4_at m c i k) (fun i k => V_main_v9_at m c i k)
  show (dats (F := Ideal) m 0 c).arrAt 2 cfg0.N (ix2 (0 : Fin 1) r) = _
  rw [final_out, ← ZV_eq]
  rfl

/-- Every weakly fair execution of the kernel program terminates with its result at the loss and its arguments unchanged. -/
theorem run_value : θ_run (defs (F := Ideal)) (onTc (τ := τ) (main (F := Ideal))) ⟨m, fun _ => 0, ρ⟩ (fun r => ∀ c : Dev nD,
      r.2.mem ((c.tc : Thread nD τ).loc main_v22) = (fun _ => lossA (batchOf (m ((c.tc : Thread nD τ).loc main_arg0))) (batchOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_v22 v22_rest).trans (VT_result m c),
      ((h c).2 main_arg0 arg0_rest).trans (VT_arg0 m c), ((h c).2 main_arg1 arg1_rest).trans (VT_arg1 m c)⟩)
    (run_main m ρ)

end Cert.KernelIdeal.Fr

end
-- ==== Proof.RefGather.lean ====
import proofs.«159862_j2027224563777_1_alg».proof.Proof.Gen.ReferenceIdeal
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-! ## The gather of one entry per row of a square array

The start indices are an array of 4096 pairs; result entry `i` is the operand at row `idx[i, 0]`, column `idx[i, 1]`,
each read as a signed number and clamped into `0 … 8191`. -/

theorem gather_pair_apply {α : Type} (x : S8192x8192.Idx → α) (idx : IVec S4096x2 32) (i : Fin 4096) :
    Host.gather gather_S8192x8192_S4096x2_S4096_n_01_n_n_01_1_11 x idx (ix1 i)
      = x (ix2 (⟨min (idx (ix2 i (0 : Fin 2))).toInt.toNat 8191, by omega⟩ : Fin 8192)
               (⟨min (idx (ix2 i (1 : Fin 2))).toInt.toNat 8191, by omega⟩ : Fin 8192)) := by
  unfold Host.gather
  refine congrArg x ?_
  funext a
  refine Fin.ext ?_
  match a with
  | ⟨0, _⟩ =>
    show gather_S8192x8192_S4096x2_S4096_n_01_n_n_01_1_11.start (ix1 i) idx 0
      + gather_S8192x8192_S4096x2_S4096_n_01_n_n_01_1_11.batchCoord (ix1 i) 0
      + gather_S8192x8192_S4096x2_S4096_n_01_n_n_01_1_11.offCoord (ix1 i) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S8192x8192_S4096x2_S4096_n_01_n_n_01_1_11.startIndexMap by decide)]
    have hsi : gather_S8192x8192_S4096x2_S4096_n_01_n_n_01_1_11.siIdx (ix1 i)
        ⟨List.idxOf (0 : Fin 2) gather_S8192x8192_S4096x2_S4096_n_01_n_n_01_1_11.startIndexMap,
          List.idxOf_lt_length_iff.2 (by decide)⟩ = ix2 i (0 : Fin 2) := by
      funext b; refine Fin.ext ?_
      match b with
      | ⟨0, _⟩ => rfl
      | ⟨1, _⟩ => rfl
    rw [hsi]
    rfl
  | ⟨1, _⟩ =>
    show gather_S8192x8192_S4096x2_S4096_n_01_n_n_01_1_11.start (ix1 i) idx 1
      + gather_S8192x8192_S4096x2_S4096_n_01_n_n_01_1_11.batchCoord (ix1 i) 1
      + gather_S8192x8192_S4096x2_S4096_n_01_n_n_01_1_11.offCoord (ix1 i) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S8192x8192_S4096x2_S4096_n_01_n_n_01_1_11.startIndexMap by decide)]
    have hsi : gather_S8192x8192_S4096x2_S4096_n_01_n_n_01_1_11.siIdx (ix1 i)
        ⟨List.idxOf (1 : Fin 2) gather_S8192x8192_S4096x2_S4096_n_01_n_n_01_1_11.startIndexMap,
          List.idxOf_lt_length_iff.2 (by decide)⟩ = ix2 i (1 : Fin 2) := by
      funext b; refine Fin.ext ?_
      match b with
      | ⟨0, _⟩ => rfl
      | ⟨1, _⟩ => rfl
    rw [hsi]
    rfl

/-! ## Words: a small number read back signed, and the two selects of the index computation -/

theorem toInt_toNat_ofNat (n : Nat) (h : n < 2147483648) : (BitVec.ofNat 32 n).toInt.toNat = n := by
  rw [BitVec.toInt_eq_toNat_cond, BitVec.toNat_ofNat]
  have : n % 2 ^ 32 = n := Nat.mod_eq_of_lt (by omega)
  rw [this, if_pos (by omega)]
  simp

theorem select_slt_zero (n : Nat) (h : n < 2147483648) (A : BitVec 32) :
    Scalar.select (IntOp.cmpi .slt (BitVec.ofNat 32 n) 0#32) A (BitVec.ofNat 32 n) = BitVec.ofNat 32 n := by
  have hs : (BitVec.ofNat 32 n).slt 0#32 = false := by
    rw [BitVec.slt, BitVec.toInt_eq_toNat_cond, BitVec.toNat_ofNat]
    have : n % 2 ^ 32 = n := Nat.mod_eq_of_lt (by omega)
    rw [this, if_pos (by omega)]
    simp
  show Scalar.select (BitVec.ofBool ((BitVec.ofNat 32 n).slt 0#32)) A (BitVec.ofNat 32 n) = _
  rw [hs]
  exact select_zero _ _

/-- The same, when the two index words are known to be small numbers. -/
theorem gather_pair_at {α : Type} (x : S8192x8192.Idx → α) (idx : IVec S4096x2 32) (i : Fin 4096) (r c : Fin 8192)
    (hr : idx (ix2 i (0 : Fin 2)) = BitVec.ofNat 32 r.val) (hc : idx (ix2 i (1 : Fin 2)) = BitVec.ofNat 32 c.val) :
    Host.gather gather_S8192x8192_S4096x2_S4096_n_01_n_n_01_1_11 x idx (ix1 i) = x (ix2 r c) := by
  rw [gather_pair_apply]
  have h0 := r.isLt
  have h1 := c.isLt
  refine congrArg x (congrArg₂ (ix2 (n0 := 8192) (n1 := 8192)) (Fin.ext ?_) (Fin.ext ?_))
  · show min (idx (ix2 i (0 : Fin 2))).toInt.toNat 8191 = r.val
    rw [hr, toInt_toNat_ofNat _ (by omega)]; omega
  · show min (idx (ix2 i (1 : Fin 2))).toInt.toNat 8191 = c.val
    rw [hc, toInt_toNat_ofNat _ (by omega)]; omega

end Cert.ReferenceIdeal.RefValue

end
-- ==== Proof.RefDiag.lean ====
import proofs.«159862_j2027224563777_1_alg».proof.Proof.RefRows
import proofs.«159862_j2027224563777_1_alg».proof.Proof.RefGather

noncomputable section

open scoped BigOperators

namespace Cert.ReferenceIdeal.RefValue

open Cert.ReferenceIdeal Cert.ReferenceIdeal.Gen Cert.ReferenceIdeal.Read Idealize.ShloMosaic Idealize.ShloMosaic.ValueIdx
open Cert.NtXent

/-! ## The two arrays of index pairs

The first call pairs row `i` with column `i + 4096`; the second pairs row `i + 4096` with column `i`. Every number is
small and not negative, so the "wrap a negative index" select keeps it. -/

theorem idxA_row (i : Fin 4096) : val_main_call2_v16 (F := Ideal) (ix2 i (0 : Fin 2)) = BitVec.ofNat 32 i.val := by
  have hi := i.isLt
  unfold val_main_call2_v16
  refine (concatenate_pair_apply_left _ _ _ concatenates_S4096x1_S4096x1_S4096x2_d1 (ix2 i (0 : Fin 2)) rfl
    (ix2 i (0 : Fin 1)) (fun b => match b with | ⟨0, _⟩ => rfl | ⟨1, _⟩ => rfl)).trans ?_
  rw [val_main_call2_v14_apply, val_main_call2_v8_apply, val_main_call2_v5_apply, val_main_call2_v0_apply,
    val_main_call2_v4_apply, val_main_call2_c_0_apply]
  exact select_slt_zero i.val (by omega) _

theorem idxA_col (i : Fin 4096) :
    val_main_call2_v16 (F := Ideal) (ix2 i (1 : Fin 2)) = BitVec.ofNat 32 (i.val + 4096) := by
  have hi := i.isLt
  unfold val_main_call2_v16
  refine (concatenate_pair_apply_right _ _ _ concatenates_S4096x1_S4096x1_S4096x2_d1 (ix2 i (1 : Fin 2)) rfl rfl
    (ix2 i (0 : Fin 1))
    (fun b hb => match b, hb with | ⟨0, _⟩, _ => rfl | ⟨1, _⟩, hb => absurd (Fin.ext rfl) hb) rfl).trans ?_
  rw [val_main_call2_v15_apply, val_main_call2_v13_apply, val_main_call2_v10_apply, val_main_call2_v3_apply,
    val_main_call2_v2_apply, val_main_call2_c_apply, val_main_call2_v1_apply, val_main_call2_v9_apply,
    val_main_call2_c_2_apply]
  have e : IntOp.addi 4096#32 (BitVec.ofNat 32 i.val) = BitVec.ofNat 32 (i.val + 4096) := by
    rw [Nat.add_comm]; exact (BitVec.ofNat_add 4096 i.val).symm
  show Scalar.select (IntOp.cmpi .slt (IntOp.addi 4096#32 (BitVec.ofNat 32 i.val)) 0#32) _
    (IntOp.addi 4096#32 (BitVec.ofNat 32 i.val)) = _
  rw [e]
  exact select_slt_zero _ (by omega) _

theorem idxB_row (i : Fin 4096) :
    val_main_call3_v16 (F := Ideal) (ix2 i (0 : Fin 2)) = BitVec.ofNat 32 (i.val + 4096) := by
  have hi := i.isLt
  unfold val_main_call3_v16
  refine (concatenate_pair_apply_left _ _ _ concatenates_S4096x1_S4096x1_S4096x2_d1 (ix2 i (0 : Fin 2)) rfl
    (ix2 i (0 : Fin 1)) (fun b => match b with | ⟨0, _⟩ => rfl | ⟨1, _⟩ => rfl)).trans ?_
  rw [val_main_call3_v14_apply, val_main_call3_v8_apply, val_main_call3_v5_apply, val_main_call3_v3_apply,
    val_main_call3_v2_apply, val_main_call3_c_apply, val_main_call3_v1_apply, val_main_call3_v4_apply,
    val_main_call3_c_0_apply]
  have e : IntOp.addi 4096#32 (BitVec.ofNat 32 i.val) = BitVec.ofNat 32 (i.val + 4096) := by
    rw [Nat.add_comm]; exact (BitVec.ofNat_add 4096 i.val).symm
  show Scalar.select (IntOp.cmpi .slt (IntOp.addi 4096#32 (BitVec.ofNat 32 i.val)) 0#32) _
    (IntOp.addi 4096#32 (BitVec.ofNat 32 i.val)) = _
  rw [e]
  exact select_slt_zero _ (by omega) _

theorem idxB_col (i : Fin 4096) : val_main_call3_v16 (F := Ideal) (ix2 i (1 : Fin 2)) = BitVec.ofNat 32 i.val := by
  have hi := i.isLt
  unfold val_main_call3_v16
  refine (concatenate_pair_apply_right _ _ _ concatenates_S4096x1_S4096x1_S4096x2_d1 (ix2 i (1 : Fin 2)) rfl rfl
    (ix2 i (0 : Fin 1))
    (fun b hb => match b, hb with | ⟨0, _⟩, _ => rfl | ⟨1, _⟩, hb => absurd (Fin.ext rfl) hb) rfl).trans ?_
  rw [val_main_call3_v15_apply, val_main_call3_v13_apply, val_main_call3_v10_apply, val_main_call3_v0_apply,
    val_main_call3_v9_apply, val_main_call3_c_2_apply]
  exact select_slt_zero i.val (by omega) _

/-! ## The two gathered half-diagonals, and their concatenation: row `r` against its partner -/

theorem v13_at (x0 x1 : FVec Ideal S4096x128 .f32) (i : Fin 4096) :
    val_main_v13 (F := Ideal) x0 x1 (ix1 i)
      = sim (stack (batchOf x0) (batchOf x1)) ⟨i.val, by omega⟩ ⟨i.val + 4096, by omega⟩ := by
  unfold val_main_v13
  rw [gather_pair_at _ _ i ⟨i.val, by omega⟩ ⟨i.val + 4096, by omega⟩ (idxA_row i) (idxA_col i)]
  exact v12_at x0 x1 _ _

theorem v14_at (x0 x1 : FVec Ideal S4096x128 .f32) (i : Fin 4096) :
    val_main_v14 (F := Ideal) x0 x1 (ix1 i)
      = sim (stack (batchOf x0) (batchOf x1)) ⟨i.val + 4096, by omega⟩ ⟨i.val, by omega⟩ := by
  unfold val_main_v14
  rw [gather_pair_at _ _ i ⟨i.val + 4096, by omega⟩ ⟨i.val, by omega⟩ (idxB_row i) (idxB_col i)]
  exact v12_at x0 x1 _ _

theorem v15_at (x0 x1 : FVec Ideal S4096x128 .f32) (r : Fin 8192) :
    val_main_v15 (F := Ideal) x0 x1 (ix1 r) = sim (stack (batchOf x0) (batchOf x1)) r (partner r) := by
  have hr := r.isLt
  unfold val_main_v15 partner
  by_cases h : r.val < 4096
  · rw [dif_pos h]
    refine (concatenate_pair_apply_left _ _ _ concatenates_S4096_S4096_S8192_d0 (ix1 r) rfl
      (ix1 (⟨r.val, h⟩ : Fin 4096)) (fun b => match b with | ⟨0, _⟩ => rfl)).trans ?_
    exact v13_at x0 x1 ⟨r.val, h⟩
  · rw [dif_neg h]
    refine (concatenate_pair_apply_right _ _ _ concatenates_S4096_S4096_S8192_d0 (ix1 r) rfl rfl
      (ix1 (⟨r.val - 4096, by omega⟩ : Fin 4096))
      (fun b hb => match b, hb with | ⟨0, _⟩, hb => absurd (Fin.ext rfl) hb)
      (by show (r.val - 4096) + 4096 = r.val; omega)).trans ?_
    refine (v14_at x0 x1 ⟨r.val - 4096, by omega⟩).trans ?_
    have e : (⟨r.val - 4096 + 4096, by omega⟩ : Fin 8192) = r := Fin.ext (by show r.val - 4096 + 4096 = r.val; omega)
    rw [e]

end Cert.ReferenceIdeal.RefValue

end
-- ==== Proof.RefValue.lean ====
import proofs.«159862_j2027224563777_1_alg».proof.Proof.RefDiag

noncomputable section

open scoped BigOperators

namespace Cert.ReferenceIdeal.RefValue

open Cert.ReferenceIdeal Cert.ReferenceIdeal.Gen Cert.ReferenceIdeal.Read Idealize.ShloMosaic Idealize.ShloMosaic.ValueIdx
open Cert.NtXent Idealize.ShloMosaic.TcCoe Idealize.SL.Sem Idealize.ShloMosaic.StableHlo

/-! ## The diagonal flag -/

theorem flag_at (r c : Fin 8192) :
    val_main_v24 (F := Ideal) (ix2 r c) = if r = c then (1 : EReal) else 0 := by
  have hr := r.isLt
  have hc := c.isLt
  rw [val_main_v24_apply, val_main_v23_apply, val_main_v22_apply, val_main_v19_apply, val_main_v21_apply,
    val_main_c_apply, val_main_v20_apply]
  show (((IntOp.cmpi .eq (IntOp.addi (BitVec.ofNat 32 r.val) 0#32) (BitVec.ofNat 32 c.val)).toNat : ℝ) : EReal) = _
  by_cases h : r = c
  · subst h
    rw [if_pos rfl]
    simp [IntOp.cmpi, IntOp.addi]
  · rw [if_neg h]
    have hne : ¬ BitVec.ofNat 32 r.val = BitVec.ofNat 32 c.val := fun e => h (Fin.ext (by
      have := congrArg BitVec.toNat e
      rw [BitVec.toNat_ofNat, BitVec.toNat_ofNat] at this
      omega))
    simp [IntOp.cmpi, IntOp.addi, hne]

/-! ## A row's denominator, and its term -/

theorem v31_at (x0 x1 : FVec Ideal S4096x128 .f32) (r : Fin 8192) :
    val_main_v31 (F := Ideal) x0 x1 (ix1 r) = denB (stack (batchOf x0) (batchOf x1)) r := by
  rw [val_main_v31_apply, val_main_cst_4_apply]
  unfold denB
  refine congrArg₂ (· + ·) rfl (Finset.sum_congr rfl fun c _ => ?_)
  have e : idx_main_v31 (ix1 r) c = ix2 r c :=
    funext fun a => Fin.ext (by match a with | ⟨0, _⟩ => rfl | ⟨1, _⟩ => rfl)
  rw [e, val_main_v30_apply, val_main_v26_apply, val_main_v25_apply, val_main_cst_2_apply, flag_at,
    val_main_v29_apply, val_main_v28_apply, v12_at, val_main_v27_apply, val_main_cst_3_apply]
  rfl

theorem v34_at (x0 x1 : FVec Ideal S4096x128 .f32) (r : Fin 8192) :
    val_main_v34 (F := Ideal) x0 x1 (ix1 r) = termB (stack (batchOf x0) (batchOf x1)) r := by
  rw [val_main_v34_apply, val_main_v33_apply, val_main_v32_apply, val_main_v18_apply, val_main_v17_apply,
    v15_at, val_main_v16_apply, val_main_cst_1_apply, v31_at]
  rfl

/-! ## The loss -/

/-- A sum over the indices of a vector of 8192 entries is the sum over the entries' numbers. -/
theorem sum_idx1 (f : S8192.Idx → EReal) : ∑ j : S8192.Idx, f j = ∑ r : Fin 8192, f (ix1 r) := by
  refine (Equiv.sum_comp (⟨fun r => ix1 r, fun j => j 0, fun _ => rfl, fun j => (eq_ix1 j).symm⟩ : Fin 8192 ≃ S8192.Idx) f).symm

/-- The reference's result, as a function of its two arguments, is the second spelling of the loss. -/
theorem ref_value (x0 x1 : FVec Ideal S4096x128 .f32) :
    val_main_v36 (F := Ideal) x0 x1 = fun _ => lossB (stack (batchOf x0) (batchOf x1)) := by
  funext i
  rw [val_main_v36_apply, val_main_v35_apply, val_main_cst_5_apply, val_main_cst_6_apply, sum_idx1]
  simp only [v34_at]
  rfl

/-- The reference's run, restated with that value. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v36)
        = (fun _ => lossB (stack (batchOf (m ((c.tc : Thread nD τ).loc main_arg0)))
            (batchOf (m ((c.tc : Thread nD τ).loc main_arg1)))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v36_eq m c).trans (ref_value _ _)), (h c).2⟩)
    (Cert.ReferenceIdeal.Value.run (F := Ideal) m ρ)

end Cert.ReferenceIdeal.RefValue

end
-- ==== Proof.RealRows.lean ====
/-
  Scaling keeps rows real: if every entry of a batch is a real number then so is every entry of its rows scaled
  to unit length, hence every entry of the two scaled batches stacked.

  For a real row the sum of squares is a nonnegative real, its square root a real, the larger of that root and the
  small positive constant a positive real, and the quotient by a nonzero real is the real quotient.
-/
import proofs.«159862_j2027224563777_1_alg».proof.Proof.Words

noncomputable section

open scoped BigOperators

namespace Cert.NtXent

open Idealize.ShloMosaic

/-- A finite sum of reals, read in the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A scaled entry of a real batch is a real. -/
theorem unitRow_coe (ξ : Fin 4096 → Fin 128 → ℝ) (i : Fin 4096) (k : Fin 128) :
    ∃ a : ℝ, unitRow (fun i k => (ξ i k : EReal)) i k = a := by
  obtain ⟨e, he, hw⟩ := wEps_pos
  have hS : (0:ℝ) ≤ ∑ k' : Fin 128, ξ i k' * ξ i k' := Finset.sum_nonneg (fun k' _ => mul_self_nonneg _)
  have h1 : wZero + ∑ k' : Fin 128, ((ξ i k' : EReal)) * (ξ i k' : EReal)
      = ((∑ k' : Fin 128, ξ i k' * ξ i k' : ℝ) : EReal) := by
    rw [wZero_eq, zero_add, coe_sum]; simp only [EReal.coe_mul]
  have hm : max ((Real.sqrt (∑ k' : Fin 128, ξ i k' * ξ i k') : ℝ) : EReal) (e : EReal)
      = ((max (Real.sqrt (∑ k' : Fin 128, ξ i k' * ξ i k')) e : ℝ) : EReal) :=
    (EReal.coe_strictMono.monotone.map_max).symm
  have hpos : (0:ℝ) < max (Real.sqrt (∑ k' : Fin 128, ξ i k' * ξ i k')) e :=
    lt_of_lt_of_le he (le_max_right _ _)
  refine ⟨ξ i k * (1 / max (Real.sqrt (∑ k' : Fin 128, ξ i k' * ξ i k')) e), ?_⟩
  dsimp only [unitRow]
  rw [h1, Ideal.sqrt_coe, if_neg (not_lt.2 hS), hw, hm, Ideal.div_coe hpos.ne', EReal.coe_mul]

/-- Every scaled entry of a batch of reals is a real. -/
theorem unitRow_real (x : Batch) (h : ∀ i k, ∃ a : ℝ, x i k = a) : ∀ i k, ∃ a : ℝ, unitRow x i k = a := by
  choose ξ hξ using h
  have hx : x = fun i k => (ξ i k : EReal) := funext fun i => funext fun k => hξ i k
  subst hx
  exact unitRow_coe ξ

/-- Every entry of the stacked scaled batches is a real. -/
theorem stack_real (x0 x1 : Batch) (h0 : ∀ i k, ∃ a : ℝ, x0 i k = a) (h1 : ∀ i k, ∃ a : ℝ, x1 i k = a) :
    ∀ r k, ∃ a : ℝ, stack x0 x1 r k = a := by
  intro r k
  unfold stack
  split_ifs with h
  · exact unitRow_real x0 h0 _ _
  · exact unitRow_real x1 h1 _ _

end Cert.NtXent

end
-- ==== Proof.LossAlgebra.lean ====
/-
  The two spellings of the NT-Xent loss agree on real rows.

  Let the stacked scaled rows be real, with real matrix ζ.  Then every inner product is the real inner product, which is
  symmetric; every exponential is a positive real; both denominators of row r are the same real sum over the rows
  c ≠ r of exp (2 · ⟨ζ r, ζ c⟩) (on the diagonal one spelling writes zero, the other (1 - 1) · exp …; dividing by
  one half is multiplying by two), a positive real because the partner row contributes a positive term; the
  positive pair of the first spelling is the inner product of row r with its partner (the same two rows, the
  product commuted in the second half); and for reals p and D > 0, - log (exp (p / T) / D) = log D - p / T.
  So the two terms of every row agree, hence the sums and the losses.
-/
import proofs.«159862_j2027224563777_1_alg».proof.Proof.RealRows

noncomputable section

open scoped BigOperators

namespace Cert.NtXent

open Idealize.ShloMosaic

/-- The real two, read in the extended reals, is two. -/
theorem coe_two : ((2 : ℝ) : EReal) = 2 := by norm_cast

/-- The inner product of two real rows. -/
def simR (ζ : Fin 8192 → Fin 128 → ℝ) (r c : Fin 8192) : ℝ := ∑ k : Fin 128, ζ r k * ζ c k

/-- The real inner product is symmetric. -/
theorem simR_comm (ζ : Fin 8192 → Fin 128 → ℝ) (r c : Fin 8192) : simR ζ r c = simR ζ c r := by
  unfold simR; exact Finset.sum_congr rfl (fun k _ => mul_comm _ _)

/-- The real denominator of row `r`: the sum over the other rows `c` of `exp (2 · ⟨ζ r, ζ c⟩)`. -/
def denR (ζ : Fin 8192 → Fin 128 → ℝ) (r : Fin 8192) : ℝ :=
  ∑ c : Fin 8192, if r = c then 0 else Real.exp (simR ζ r c * 2)

/-- The partner's row number. -/
theorem partner_val (r : Fin 8192) :
    (partner r).val = if r.val < 4096 then r.val + 4096 else r.val - 4096 := by
  unfold partner; split_ifs <;> rfl

/-- No row is its own partner. -/
theorem ne_partner (r : Fin 8192) : r ≠ partner r := by
  intro h
  have h' := congrArg Fin.val h
  rw [partner_val] at h'
  split_ifs at h' <;> omega

/-- The real denominator is positive: its terms are nonnegative and the partner's is positive. -/
theorem denR_pos (ζ : Fin 8192 → Fin 128 → ℝ) (r : Fin 8192) : 0 < denR ζ r := by
  unfold denR
  refine Finset.sum_pos' (fun c _ => ?_) ⟨partner r, Finset.mem_univ _, ?_⟩
  · split_ifs
    · exact le_rfl
    · exact (Real.exp_pos _).le
  · rw [if_neg (ne_partner r)]; exact Real.exp_pos _

/-- The real term of row `r`: `log D - p / T` with `T = 1/2`. -/
def termR (ζ : Fin 8192 → Fin 128 → ℝ) (r : Fin 8192) : ℝ :=
  Real.log (denR ζ r) - simR ζ r (partner r) * (1 / (1 / 2))

section Real
variable {z : Rows} {ζ : Fin 8192 → Fin 128 → ℝ} (hz : ∀ r k, z r k = (ζ r k : EReal))
include hz

/-- The inner product of real rows is the real inner product. -/
theorem sim_real (r c : Fin 8192) : sim z r c = (simR ζ r c : EReal) := by
  unfold sim simR
  rw [coe_sum]
  exact Finset.sum_congr rfl (fun k _ => by rw [hz, hz, EReal.coe_mul])

/-- The first spelling's denominator is the real denominator. -/
theorem denA_real (r : Fin 8192) : denA z r = (denR ζ r : EReal) := by
  unfold denA denR
  rw [coe_sum]
  refine Finset.sum_congr rfl (fun c _ => ?_)
  split_ifs with h
  · rw [wZero_eq, EReal.coe_zero]
  · have h2 : ((simR ζ r c : ℝ) : EReal) * 2 = ((simR ζ r c * 2 : ℝ) : EReal) := by
      rw [EReal.coe_mul, coe_two]
    rw [sim_real hz, wTwo_eq, simR_comm ζ c r, h2, Ideal.exp_coe]

/-- The second spelling's denominator is the real denominator. -/
theorem denB_real (r : Fin 8192) : denB z r = (denR ζ r : EReal) := by
  unfold denB denR
  rw [wZero_eq, zero_add, coe_sum]
  refine Finset.sum_congr rfl (fun c _ => ?_)
  rw [sim_real hz, wHalf_eq, Ideal.div_coe (by norm_num : (1 / 2 : ℝ) ≠ 0), ← EReal.coe_mul, Ideal.exp_coe,
    wOne_eq]
  split_ifs with h
  · have h1 : (1 : EReal) - 1 = 0 := by
      rw [← EReal.coe_one, ← EReal.coe_sub, sub_self, EReal.coe_zero]
    rw [h1, zero_mul, EReal.coe_zero]
  · have h1 : (1 : EReal) - 0 = 1 := by
      rw [← EReal.coe_one, ← EReal.coe_zero, ← EReal.coe_sub, sub_zero]
    have h2 : (1 / (1 / 2) : ℝ) = 2 := by norm_num
    rw [h1, one_mul, h2]

/-- The second spelling's term is the real term: `- log (exp q / D) = log D - q` for `D > 0`. -/
theorem termB_real (r : Fin 8192) : termB z r = (termR ζ r : EReal) := by
  have hD := denR_pos ζ r
  have hq : 0 < Real.exp (simR ζ r (partner r) * (1 / (1 / 2))) * (1 / denR ζ r) :=
    mul_pos (Real.exp_pos _) (one_div_pos.2 hD)
  unfold termB termR
  rw [denB_real hz, sim_real hz, wHalf_eq, Ideal.div_coe (by norm_num : (1 / 2 : ℝ) ≠ 0), ← EReal.coe_mul,
    Ideal.exp_coe, Ideal.div_coe hD.ne', ← EReal.coe_mul, Ideal.log_coe, if_neg (not_le.2 hq), ← EReal.coe_neg]
  congr 1
  rw [Real.log_mul (Real.exp_pos _).ne' (one_div_pos.2 hD).ne', Real.log_exp, one_div (denR ζ r), Real.log_inv]
  ring

end Real

/-- A stacked row by its row number: row `i` of the first scaled batch, or row `i` of the second 4096 further on. -/
theorem stack_val (x0 x1 : Batch) (r : Fin 8192) (i : Fin 4096) (k : Fin 128) :
    (r.val = i.val → stack x0 x1 r k = unitRow x0 i k)
    ∧ (r.val = i.val + 4096 → stack x0 x1 r k = unitRow x1 i k) := by
  constructor
  · intro h
    have hlt : r.val < 4096 := by omega
    have hi : (⟨r.val, hlt⟩ : Fin 4096) = i := Fin.ext h
    unfold stack
    rw [dif_pos hlt, hi]
  · intro h
    have hlt : ¬ r.val < 4096 := by omega
    have hi : (⟨r.val - 4096, by omega⟩ : Fin 4096) = i := Fin.ext (by simp only []; omega)
    unfold stack
    rw [dif_neg hlt, hi]

/-- The kernel's positive pair is the inner product of a row with its partner. -/
theorem posA_eq (x0 x1 : Batch) (r : Fin 8192) :
    posA x0 x1 ⟨r.val % 4096, Nat.mod_lt _ (by norm_num)⟩ = sim (stack x0 x1) r (partner r) := by
  unfold posA sim
  rw [wZero_eq, zero_add]
  refine Finset.sum_congr rfl (fun k _ => ?_)
  have hp := partner_val r
  by_cases h : r.val < 4096
  · rw [if_pos h] at hp
    rw [(stack_val x0 x1 r ⟨r.val % 4096, Nat.mod_lt _ (by norm_num)⟩ k).1 (by simp only []; omega),
      (stack_val x0 x1 (partner r) ⟨r.val % 4096, Nat.mod_lt _ (by norm_num)⟩ k).2 (by simp only []; omega)]
  · rw [if_neg h] at hp
    rw [(stack_val x0 x1 r ⟨r.val % 4096, Nat.mod_lt _ (by norm_num)⟩ k).2 (by simp only []; omega),
      (stack_val x0 x1 (partner r) ⟨r.val % 4096, Nat.mod_lt _ (by norm_num)⟩ k).1 (by simp only []; omega),
      mul_comm]

/-- The first spelling's term is the real term. -/
theorem termA_real (x0 x1 : Batch) {ζ : Fin 8192 → Fin 128 → ℝ}
    (hz : ∀ r k, stack x0 x1 r k = (ζ r k : EReal)) (r : Fin 8192) :
    termA x0 x1 r = (termR ζ r : EReal) := by
  unfold termA termR
  rw [posA_eq, denA_real hz, sim_real hz, wHalf_eq, Ideal.div_coe (by norm_num : (1 / 2 : ℝ) ≠ 0),
    ← EReal.coe_mul, Ideal.log_coe, if_neg (not_le.2 (denR_pos ζ r)), ← EReal.coe_sub]

/-- On real inputs the two spellings of the loss agree. -/
theorem lossB_eq_lossA (x0 x1 : Batch) (h0 : ∀ i k, ∃ a : ℝ, x0 i k = a) (h1 : ∀ i k, ∃ a : ℝ, x1 i k = a) :
    lossB (stack x0 x1) = lossA x0 x1 := by
  choose ζ hζ using stack_real x0 x1 h0 h1
  have ht : ∀ r, termB (stack x0 x1) r = termA x0 x1 r := fun r => by
    rw [termB_real hζ, termA_real x0 x1 hζ]
  unfold lossB lossA
  rw [Finset.sum_congr rfl (fun r _ => ht r)]

end Cert.NtXent

end
-- ==== Proof.Finite.lean ====
/-
  The precondition says every input entry is a real number.

  The printed predicate is the conjunction, over both arrays, of "for all entries x, |x| < +∞", each written as a
  reduction by `and` from 1 over all indices.  If the conjunction is 1 then both reductions are 1, so every
  compared entry is 1, and an extended real whose absolute value max x (-x) is below +∞ is neither +∞ nor -∞.
-/
import proofs.«159862_j2027224563777_1_alg».proof.Pre_finite_inputs
import Idealize.ShloMosaic.Lib.ReduceAll
import Idealize.ShloMosaic.Lib.ValueIdx
import Idealize.ShloMosaic.PureOps.Ideal

noncomputable section

namespace Cert.NtXent

open Idealize.ShloMosaic

/-- The shape with no axes has one index. -/
instance : Subsingleton Cert.Pre_finite_inputs.S_.Idx := ⟨fun a b => funext fun d => d.elim0⟩

/-- An extended real whose absolute value is below +∞ is a real. -/
theorem real_of_abs_lt_top (x : Ideal .f32)
    (h : FloatOps.cmpf (F := Ideal) .olt (FloatOps.hostAbsf x) (FloatOps.ofBits (F := Ideal) .f32 0x7F800000#32)
      = 1#1) :
    ∃ a : ℝ, x = (a : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe a => exact ⟨a, rfl⟩
  | top => simp at h

/-- If the finiteness predicate of the two input arrays is 1 then every entry of both is a real. -/
theorem real_of_pre [Cert.Pre_finite_inputs.Facts]
    (x0 x1 : FVec Ideal Cert.Pre_finite_inputs.S4096x128 .f32)
    (h : Cert.Pre_finite_inputs.fn (F := Ideal) x0 x1 = fun _ => 1#1) :
    (∀ i, ∃ a : ℝ, x0 i = (a : EReal)) ∧ (∀ i, ∃ a : ℝ, x1 i = (a : EReal)) := by
  have h' := congrFun h ValueIdx.ix0
  dsimp only [Cert.Pre_finite_inputs.fn] at h'
  obtain ⟨ha, hb⟩ := IntOp.andi_eq_one.1 h'
  exact ⟨fun i => real_of_abs_lt_top _ (Host.reduce_andi_all _ _ _ _ _ ha i),
    fun i => real_of_abs_lt_top _ (Host.reduce_andi_all _ _ _ _ _ hb i)⟩

end Cert.NtXent

end
-- ==== Proof.Assemble.lean ====
/-
  The two programs compute one number.

  The kernel's program ends with the first spelling of the loss of its two argument arrays (taken here as a
  hypothesis: it is proved from the kernel's run elsewhere); the reference ends with the second spelling of the
  loss of its own two arrays.  The arrays agree, the precondition makes every entry a real number, and on real
  entries the two spellings are one number.
-/
import proofs.«159862_j2027224563777_1_alg».proof.Defs
import proofs.«159862_j2027224563777_1_alg».proof.Proof.Gen.KernelIdeal
import proofs.«159862_j2027224563777_1_alg».proof.Proof.Gen.ReferenceIdeal
import proofs.«159862_j2027224563777_1_alg».proof.Proof.Gen.Pre_finite_inputs
import proofs.«159862_j2027224563777_1_alg».proof.Proof.RefValue
import proofs.«159862_j2027224563777_1_alg».proof.Proof.LossAlgebra
import proofs.«159862_j2027224563777_1_alg».proof.Proof.Finite

noncomputable section

namespace Cert.Proof.Parts

open Idealize.ShloMosaic Idealize.ShloMosaic.TcCoe Idealize.SL.Sem
open Cert.NtXent
open Cert.ReferenceIdeal.RefValue (batchOf)

/-- The reference runs and leaves its arguments as they were: its run with the result dropped. -/
theorem frame_ref [hReferenceIdeal : Cert.ReferenceIdeal.Facts] [hPre : Cert.Pre_finite_inputs.Facts] :
    Cert.frame_ReferenceIdeal (hReferenceIdeal := hReferenceIdeal) (hPre_finite_inputs := hPre) :=
  fun m ρ _ => (θ_run Cert.ReferenceIdeal.defs _ _).mono (fun _ h c => (h c).2)
    (Cert.ReferenceIdeal.RefValue.run_ref m ρ)

/-- From the kernel's run ending at the first spelling of the loss: both programs run and end with equal results. -/
theorem algebraic_of [hKernelIdeal : Cert.KernelIdeal.Facts] [hReferenceIdeal : Cert.ReferenceIdeal.Facts]
    [hPre : Cert.Pre_finite_inputs.Facts]
    (hrun : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v22)
            = (fun _ => lossA
                (batchOf (m ((c.tc : Thread Cert.KernelIdeal.nD Cert.KernelIdeal.τ).loc Cert.KernelIdeal.main_arg0)))
                (batchOf (m ((c.tc : Thread Cert.KernelIdeal.nD Cert.KernelIdeal.τ).loc Cert.KernelIdeal.main_arg1))))
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))) :
    Cert.algebraic_KernelIdeal_ReferenceIdeal (hKernelIdeal := hKernelIdeal) (hReferenceIdeal := hReferenceIdeal)
      (hPre_finite_inputs := hPre) := by
  intro m ρ m' ρ' hpre hagree
  refine ⟨fun c => fun _ => lossA
      (batchOf (m ((c.tc : Thread Cert.KernelIdeal.nD Cert.KernelIdeal.τ).loc Cert.KernelIdeal.main_arg0)))
      (batchOf (m ((c.tc : Thread Cert.KernelIdeal.nD Cert.KernelIdeal.τ).loc Cert.KernelIdeal.main_arg1))),
    hrun m ρ, ?_⟩
  refine (θ_run Cert.ReferenceIdeal.defs _ _).mono (fun _ h c => ⟨(h c).1.trans ?_, (h c).2⟩)
    (Cert.ReferenceIdeal.RefValue.run_ref m' ρ')
  rw [(hagree c).1, (hagree c).2]
  obtain ⟨h0, h1⟩ := real_of_pre _ _ (hpre c)
  exact funext fun _ => lossB_eq_lossA _ _ (fun i k => h0 (ValueIdx.ix2 i k)) (fun i k => h1 (ValueIdx.ix2 i k))

end Cert.Proof.Parts

end
-- ==== Proof.lean ====
/-
  The certificate of the NT-Xent loss kernel against its jnp reference.

  Both programs scale the 2 x 4096 input rows to unit length on the host and stack them into 8192 rows.  The kernel
  program then computes, tile by tile on an 8 x 8 grid, for every row r the sum over the other rows c of
  exp (2 <row c, row r>) — the diagonal term replaced by zero, the sum over the columns accumulated across the
  second grid coordinate in a scratch block — and finishes on the host with the mean of log D_r - p_r / T.  The
  reference forms the whole 8192 x 8192 matrix of inner products, multiplies the diagonal by 1 - 1, and takes the
  mean of - log (exp (p_r / T) / D_r).

  • The three frames: each program runs to its end from any memory and leaves its two argument arrays unchanged.
    The kernel's two input windows read one array, whose ownership is split in halves at the kernel's entry and
    joined at its exit.
  • The idealization rewrote nothing, so `preserves` is trivial.
  • Over the extended reals the two results agree on finite inputs: the scaled rows are then real, every
    exponential is a positive real, both denominators are the same positive real sum, and for real p and D > 0,
    - log (exp (p / T) / D) = log D - p / T.
-/
import proofs.«159862_j2027224563777_1_alg».proof.Defs
import proofs.«159862_j2027224563777_1_alg».proof.Proof.Gen.Kernel
import proofs.«159862_j2027224563777_1_alg».proof.Proof.Gen.KernelIdeal
import proofs.«159862_j2027224563777_1_alg».proof.Proof.Gen.ReferenceIdeal
import proofs.«159862_j2027224563777_1_alg».proof.Proof.Gen.Pre_finite_inputs
import proofs.«159862_j2027224563777_1_alg».proof.Proof.BitsClaim
import proofs.«159862_j2027224563777_1_alg».proof.Proof.IdealClaim
import proofs.«159862_j2027224563777_1_alg».proof.Proof.IdealResult
import proofs.«159862_j2027224563777_1_alg».proof.Proof.Assemble

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Fr.frame (F := Bits) m ρ,
  fun m ρ _ => Cert.KernelIdeal.Fr.frame (F := Ideal) m ρ,
  Cert.Proof.Parts.frame_ref,
  trivial,
  Cert.Proof.Parts.algebraic_of (fun m ρ => Cert.KernelIdeal.Fr.run_value m ρ)⟩

end Cert.Proof

end
